-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S30x30 : S_.BroadcastsInDim S30x30 (![] : Fin 0 → Fin S30x30.rank)
  reducesTo_S30x30_S_d0_1 : S30x30.ReducesTo [0, 1] S_
  bcast_S_S30 : S_.BroadcastsInDim S30 (![] : Fin 0 → Fin S30.rank)
  reducesTo_S30_S_d0 : S30.ReducesTo [0] S_
  bcast_S_S30x10 : S_.BroadcastsInDim S30x10 (![] : Fin 0 → Fin S30x10.rank)
  reducesTo_S30x10_S_d0_1 : S30x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S10x1 .f32) (main_v50 : FVec F S10x1 .f32) : IVec S_ 1 :=
  let main_v51 : IVec S10x1 1 := cmpf .olt main_v49 main_v50
  let main_c_19 : IVec S_ 1 := constantI S_ 1 1#1
  let main_v52 : IVec S_ 1 := (fun x v => Host.reduce IntOp.andi x v reducesTo_S10x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S10 .f32) (main_arg9 : FVec F S10x10 .f32) (main_arg10 : FVec F S10 .f32) (main_arg11 : FVec F S10x1 .f32) (main_arg12 : FVec F S1 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x10 .f32 := Host.absf main_arg9
  let main_cst_14 : FVec F S_ .f32 := constant S_ .f32 0x7F800000#32
  let main_v40 : FVec F S10x10 .f32 := broadcastInDim S10x10 ![] bcast_S_S10x10 main_cst_14
  let main_v41 : IVec S10x10 1 := cmpf .olt main_v39 main_v40
  let main_c_15 : IVec S_ 1 := constantI S_ 1 1#1
  let main_v42 : IVec S_ 1 := (fun x v => Host.reduce IntOp.andi x v reducesTo_S10x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S10x1 .f32 := Host.absf main_arg11
  let main_cst_18 : FVec F S_ .f32 := constant S_ .f32 0x7F800000#32
  let main_v50 : FVec F S10x1 .f32 := broadcastInDim S10x1 ![] bcast_S_S10x1 main_cst_18
  fn_part3 (F := F) main_arg12 main_v48 main_v49 main_v50

def fn_part1 {F : FTy → Type} [FloatOps F] (main_arg5 : FVec F S30x10 .f32) (main_arg6 : FVec F S10 .f32) (main_arg7 : FVec F S10x10 .f32) (main_arg8 : FVec F S10 .f32) (main_arg9 : FVec F S10x10 .f32) (main_arg10 : FVec F S10 .f32) (main_arg11 : FVec F S10x1 .f32) (main_arg12 : FVec F S1 .f32) (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  let main_v19 : FVec F S30x10 .f32 := Host.absf main_arg5
  let main_cst_6 : FVec F S_ .f32 := constant S_ .f32 0x7F800000#32
  let main_v20 : FVec F S30x10 .f32 := broadcastInDim S30x10 ![] bcast_S_S30x10 main_cst_6
  let main_v21 : IVec S30x10 1 := cmpf .olt main_v19 main_v20
  let main_c_7 : IVec S_ 1 := constantI S_ 1 1#1
  let main_v22 : IVec S_ 1 := (fun x v => Host.reduce IntOp.andi x v reducesTo_S30x10_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg7
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x30 .f32) (main_arg1 : IVec S2x3200000 32) (main_arg2 : FVec F S3200000 .f32) (main_arg3 : FVec F S30x30 .f32) (main_arg4 : FVec F S30 .f32) (main_arg5 : FVec F S30x10 .f32) (main_arg6 : FVec F S10 .f32) (main_arg7 : FVec F S10x10 .f32) (main_arg8 : FVec F S10 .f32) (main_arg9 : FVec F S10x10 .f32) (main_arg10 : FVec F S10 .f32) (main_arg11 : FVec F S10x1 .f32) (main_arg12 : FVec F S1 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S30x30 .f32 := Host.absf main_arg3
  let main_cst_2 : FVec F S_ .f32 := constant S_ .f32 0x7F800000#32
  let main_v10 : FVec F S30x30 .f32 := broadcastInDim S30x30 ![] bcast_S_S30x30 main_cst_2
  let main_v11 : IVec S30x30 1 := cmpf .olt main_v9 main_v10
  let main_c_3 : IVec S_ 1 := constantI S_ 1 1#1
  let main_v12 : IVec S_ 1 := (fun x v => Host.reduce IntOp.andi x v reducesTo_S30x30_S_d0_1 h_S_) main_v11 main_c_3
  let main_v13 : IVec S_ 1 := andi main_v8 main_v12
  let main_v14 : FVec F S30 .f32 := Host.absf main_arg4
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_arg5 main_arg6 main_arg7 main_arg8 main_arg9 main_arg10 main_arg11 main_arg12 main_v13 main_v16
-- ==== Kernel.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S3200000x30 : Shape := ⟨2, ![3200000, 30]⟩
abbrev S100000x1 : Shape := ⟨2, ![100000, 1]⟩
abbrev S1x30 : Shape := ⟨2, ![1, 30]⟩
abbrev S1x10 : Shape := ⟨2, ![1, 10]⟩
abbrev S1x1 : Shape := ⟨2, ![1, 1]⟩
abbrev S5000x30 : Shape := ⟨2, ![5000, 30]⟩
abbrev S5000x1 : Shape := ⟨2, ![5000, 1]⟩
abbrev S5000x10 : Shape := ⟨2, ![5000, 10]⟩

abbrev nBuf : Space → Nat
  | .hbm => 80
  | .vmem => 14
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x30, .f32⟩
  | .hbm, ⟨4, _⟩ => ⟨S30, .f32⟩
  | .hbm, ⟨5, _⟩ => ⟨S30x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000, .f32⟩
  | .hbm, ⟨51, _⟩ => ⟨S3200000, .f32⟩
  | .hbm, ⟨52, _⟩ => ⟨S_, .i32⟩
  | .hbm, ⟨53, _⟩ => ⟨S3200000, .i32⟩
  | .hbm, ⟨54, _⟩ => ⟨S3200000, .i1⟩
  | .hbm, ⟨55, _⟩ => ⟨S_, .i32⟩
  | .hbm, ⟨56, _⟩ => ⟨S3200000, .i32⟩
  | .hbm, ⟨57, _⟩ => ⟨S3200000, .i32⟩
  | .hbm, ⟨58, _⟩ => ⟨S3200000, .i32⟩
  | .hbm, ⟨59, _⟩ => ⟨S3200000x1, .i32⟩
  | .hbm, ⟨60, _⟩ => ⟨S3200000x30, .f32⟩
  | .hbm, ⟨61, _⟩ => ⟨S3200000x1, .f32⟩
  | .hbm, ⟨62, _⟩ => ⟨S3200000x30, .f32⟩
  | .hbm, ⟨63, _⟩ => ⟨S3200000x30, .f32⟩
  | .hbm, ⟨64, _⟩ => ⟨S_, .f32⟩
  | .hbm, ⟨65, _⟩ => ⟨S100000x30, .f32⟩
  | .hbm, ⟨66, _⟩ => ⟨S3200000x1, .i32⟩
  | .hbm, ⟨67, _⟩ => ⟨S100000x30, .f32⟩
  | .hbm, ⟨68, _⟩ => ⟨S100000, .f32⟩
  | .hbm, ⟨69, _⟩ => ⟨S100000x1, .f32⟩
  | .hbm, ⟨70, _⟩ => ⟨S100000x30, .f32⟩
  | .hbm, ⟨71, _⟩ => ⟨S100000x30, .f32⟩
  | .hbm, ⟨72, _⟩ => ⟨S100000x30, .f32⟩
  | .hbm, ⟨73, _⟩ => ⟨S1x30, .f32⟩
  | .hbm, ⟨74, _⟩ => ⟨S1x10, .f32⟩
  | .hbm, ⟨75, _⟩ => ⟨S1x10, .f32⟩
  | .hbm, ⟨76, _⟩ => ⟨S1x10, .f32⟩
  | .hbm, ⟨77, _⟩ => ⟨S1x1, .f32⟩
  | .hbm, ⟨78, _⟩ => ⟨S100000x1, .f32⟩
  | .hbm, ⟨79, _⟩ => ⟨S100000, .f32⟩
  | .local _ .vmem, ⟨0, _⟩ => ⟨S5000x30, .f32⟩
  | .local _ .vmem, ⟨1, _⟩ => ⟨S5000x30, .f32⟩
  | .local _ .vmem, ⟨2, _⟩ => ⟨S30x30, .f32⟩
  | .local _ .vmem, ⟨3, _⟩ => ⟨S1x30, .f32⟩
  | .local _ .vmem, ⟨4, _⟩ => ⟨S30x10, .f32⟩
  | .local _ .vmem, ⟨5, _⟩ => ⟨S1x10, .f32⟩
  | .local _ .vmem, ⟨6, _⟩ => ⟨S10x10, .f32⟩
  | .local _ .vmem, ⟨7, _⟩ => ⟨S1x10, .f32⟩
  | .local _ .vmem, ⟨8, _⟩ => ⟨S10x10, .f32⟩
  | .local _ .vmem, ⟨9, _⟩ => ⟨S1x10, .f32⟩
  | .local _ .vmem, ⟨10, _⟩ => ⟨S10x1, .f32⟩
  | .local _ .vmem, ⟨11, _⟩ => ⟨S1x1, .f32⟩
  | .local _ .vmem, ⟨12, _⟩ => ⟨S5000x1, .f32⟩
  | .local _ .vmem, ⟨13, _⟩ => ⟨S5000x1, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S30x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x30_0_1 : S3200000x1.BroadcastsInDim S3200000x30 (![0, 1] : Fin 2 → Fin S3200000x30.rank)
  bcast_S_S100000x30 : S_.BroadcastsInDim S100000x30 (![] : Fin 0 → Fin S100000x30.rank)
  bcast_S100000_S100000x1_0 : S100000.BroadcastsInDim S100000x1 (![0] : Fin 1 → Fin S100000x1.rank)
  bcast_S100000x1_S100000x30_0_1 : S100000x1.BroadcastsInDim S100000x30 (![0, 1] : Fin 2 → Fin S100000x30.rank)
  shapeCasts_S30_S1x30 : S30.ShapeCasts S1x30
  shapeCasts_S10_S1x10 : S10.ShapeCasts S1x10
  shapeCasts_S1_S1x1 : S1.ShapeCasts S1x1
  inb_S5000x30_S5000x30_0_0 : ∀ a, (![0, 0] : Fin 2 → Nat) a + S5000x30.size a ≤ S5000x30.size a
  h_S5000x30 : 0 < S5000x30.numel
  shapeCasts_S5000x30_S5000x30 : S5000x30.ShapeCasts S5000x30
  bitsLt_bf16_f32 : FTy.bits .bf16 < FTy.bits .f32
  inb_S30x30_S30x30_0_0 : ∀ a, (![0, 0] : Fin 2 → Nat) a + S30x30.size a ≤ S30x30.size a
  h_S30x30 : 0 < S30x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S5000x30 : S1x30.Broadcasts S5000x30
  inb_S30x10_S30x10_0_0 : ∀ a, (![0, 0] : Fin 2 → Nat) a + S30x10.size a ≤ S30x10.size a
  h_S30x10 : 0 < S30x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S10x10_S10x10_0_0 : ∀ a, (![0, 0] : Fin 2 → Nat) a + S10x10.size a ≤ S10x10.size a
  h_S10x10 : 0 < S10x10.numel
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x30_S3200000x1_S3200000x30_1_0_n_n_0_1_130_wf : GatherDims.WF S100000x30 S3200000x1 S3200000x30 [1] [0] [] [0] [] 1 ![1, 30]
  scatter_S100000x30_S3200000x1_S3200000x30_1_0_0_1_wf : ScatterDims.WF S100000x30 S3200000x1 S3200000x30 [1] [0] [0] 1
  dot_S5000x30_S30x30_S5000x30_1_0_0_1_n_n_wf : DotDims.WF S5000x30 S30x30 S5000x30 [1] [0] [0] [1] [] []
  dot_S5000x30_S30x10_S5000x10_1_0_0_1_n_n_wf : DotDims.WF S5000x30 S30x10 S5000x10 [1] [0] [0] [1] [] []
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S100000x30.size a
  hwx0_0 : ∀ i : grid0.Coords, EltTy.bits .f32 = 32 ∨ (Rect.block (s := S100000x30) S5000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x30.size a ≤ S30x30.size a
  hwx0_1 : ∀ i : grid0.Coords, EltTy.bits .f32 = 32 ∨ (Rect.block (s := S30x30) S30x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S30x10.size a ≤ S30x10.size a
  hwx0_3 : ∀ i : grid0.Coords, EltTy.bits .f32 = 32 ∨ (Rect.block (s := S30x10) S30x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x1.size a ≤ S10x1.size a
  hwx0_9 : ∀ i : grid0.Coords, EltTy.bits .f32 = 32 ∨ (Rect.block (s := S10x1) S10x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x1.size a ≤ S100000x1.size a
  hwx0_11 : ∀ i : grid0.Coords, EltTy.bits .f32 = 32 ∨ (Rect.block (s := S100000x1) S5000x1.size (cc0_transform_11 i) (hinb0_11 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x30_S3200000x1_S3200000x30_1_0_n_n_0_1_130 : GatherDims S100000x30 S3200000x1 S3200000x30 where
  offsetDims := [1]
  collapsedSliceDims := [0]
  operandBatchingDims := []
  startIndicesBatchingDims := []
  startIndexMap := [0]
  indexVectorDim := 1
  sliceSizes := ![1, 30]
  wf := gather_S100000x30_S3200000x1_S3200000x30_1_0_n_n_0_1_130_wf
def scatter_S100000x30_S3200000x1_S3200000x30_1_0_0_1 : ScatterDims S100000x30 S3200000x1 S3200000x30 where
  updateWindowDims := [1]
  insertedWindowDims := [0]
  scatterDimsToOperandDims := [0]
  indexVectorDim := 1
  wf := scatter_S100000x30_S3200000x1_S3200000x30_1_0_0_1_wf
def dot_S5000x30_S30x30_S5000x30_1_0_0_1_n_n : DotDims S5000x30 S30x30 S5000x30 where
  lhsContracting := [1]
  rhsContracting := [0]
  lhsNonContracting := [0]
  rhsNonContracting := [1]
  lhsBatch := []
  rhsBatch := []
  wf := dot_S5000x30_S30x30_S5000x30_1_0_0_1_n_n_wf
def dot_S5000x30_S30x10_S5000x10_1_0_0_1_n_n : DotDims S5000x30 S30x10 S5000x10 where
  lhsContracting := [1]
  rhsContracting := [0]
  lhsNonContracting := [0]
  rhsNonContracting := [1]
  lhsBatch := []
  rhsBatch := []
  wf := dot_S5000x30_S30x10_S5000x10_1_0_0_1_n_n_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

abbrev win0_0 : Pipeline.Window sig grid0 :=
  Pipeline.Window.ofSpec (Memref.whole main_v46) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S30x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S30x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S10x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S5000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x30 : Shape := ⟨2, ![100000, 30]⟩
abbrev S2x3200000 : Shape := ⟨2, ![2, 3200000]⟩
abbrev S3200000 : Shape := ⟨1, ![3200000]⟩
abbrev S30x30 : Shape := ⟨2, ![30, 30]⟩
abbrev S30 : Shape := ⟨1, ![30]⟩
abbrev S30x10 : Shape := ⟨2, ![30, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S100000x10 : Shape := ⟨2, ![100000, 10]⟩
abbrev S1x10 : Shape := ⟨2, ![1, 10]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x30, .f32⟩
  | .hbm, ⟨1, _⟩ => ⟨S2x3200000, .i32⟩
  | .hbm, ⟨2, _⟩ => ⟨S3200000, .f32⟩
  | .hbm, ⟨3, _⟩ => ⟨S30x30, .f32⟩
  | .hbm, ⟨4, _⟩ => ⟨S30, .f32⟩
  | .hbm, ⟨5, _⟩ => ⟨S30x10, .f32⟩
  | .hbm, ⟨6, _⟩ => ⟨S10, .f32⟩
  | .hbm, ⟨7, _⟩ => ⟨S10x10, .f32⟩
  | .hbm, ⟨8, _⟩ => ⟨S10, .f32⟩
  | .hbm, ⟨9, _⟩ => ⟨S10x10, .f32⟩
  | .hbm, ⟨10, _⟩ => ⟨S10, .f32⟩
  | .hbm, ⟨11, _⟩ => ⟨S10x1, .f32⟩
  | .hbm, ⟨12, _⟩ => ⟨S1, .f32⟩
  | .hbm, ⟨13, _⟩ => ⟨S100000x30, .f32⟩
  | .hbm, ⟨14, _⟩ => ⟨S100000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S1x3200000, .i32⟩
  | .hbm, ⟨19, _⟩ => ⟨S3200000, .i32⟩
  | .hbm, ⟨20, _⟩ => ⟨S3300000, .i32⟩
  | .hbm, ⟨21, _⟩ => ⟨S_, .f32⟩
  | .hbm, ⟨22, _⟩ => ⟨S100000, .f32⟩
  | .hbm, ⟨23, _⟩ => ⟨S3300000, .f32⟩
  | .hbm, ⟨24, _⟩ => ⟨S_, .f32⟩
  | .hbm, ⟨25, _⟩ => ⟨S100000, .f32⟩
  | .hbm, ⟨26, _⟩ => ⟨S3300000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x30, .f32⟩
  | .hbm, ⟨65, _⟩ => ⟨S3300000x1, .f32⟩
  | .hbm, ⟨66, _⟩ => ⟨S3300000x30, .f32⟩
  | .hbm, ⟨67, _⟩ => ⟨S3300000x30, .f32⟩
  | .hbm, ⟨68, _⟩ => ⟨S_, .f32⟩
  | .hbm, ⟨69, _⟩ => ⟨S100000x30, .f32⟩
  | .hbm, ⟨70, _⟩ => ⟨S3300000x1, .i32⟩
  | .hbm, ⟨71, _⟩ => ⟨S100000x30, .f32⟩
  | .hbm, ⟨72, _⟩ => ⟨S1x30, .f32⟩
  | .hbm, ⟨73, _⟩ => ⟨S100000x30, .f32⟩
  | .hbm, ⟨74, _⟩ => ⟨S100000x30, .f32⟩
  | .hbm, ⟨75, _⟩ => ⟨S_, .f32⟩
  | .hbm, ⟨76, _⟩ => ⟨S100000x30, .f32⟩
  | .hbm, ⟨77, _⟩ => ⟨S100000x30, .f32⟩
  | .hbm, ⟨78, _⟩ => ⟨S100000x10, .f32⟩
  | .hbm, ⟨79, _⟩ => ⟨S1x10, .f32⟩
  | .hbm, ⟨80, _⟩ => ⟨S100000x10, .f32⟩
  | .hbm, ⟨81, _⟩ => ⟨S100000x10, .f32⟩
  | .hbm, ⟨82, _⟩ => ⟨S_, .f32⟩
  | .hbm, ⟨83, _⟩ => ⟨S100000x10, .f32⟩
  | .hbm, ⟨84, _⟩ => ⟨S100000x10, .f32⟩
  | .hbm, ⟨85, _⟩ => ⟨S100000x10, .f32⟩
  | .hbm, ⟨86, _⟩ => ⟨S1x10, .f32⟩
  | .hbm, ⟨87, _⟩ => ⟨S100000x10, .f32⟩
  | .hbm, ⟨88, _⟩ => ⟨S100000x10, .f32⟩
  | .hbm, ⟨89, _⟩ => ⟨S_, .f32⟩
  | .hbm, ⟨90, _⟩ => ⟨S100000x10, .f32⟩
  | .hbm, ⟨91, _⟩ => ⟨S100000x10, .f32⟩
  | .hbm, ⟨92, _⟩ => ⟨S100000x10, .f32⟩
  | .hbm, ⟨93, _⟩ => ⟨S1x10, .f32⟩
  | .hbm, ⟨94, _⟩ => ⟨S100000x10, .f32⟩
  | .hbm, ⟨95, _⟩ => ⟨S100000x10, .f32⟩
  | .hbm, ⟨96, _⟩ => ⟨S_, .f32⟩
  | .hbm, ⟨97, _⟩ => ⟨S100000x10, .f32⟩
  | .hbm, ⟨98, _⟩ => ⟨S100000x10, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | .hbm, ⟨103, _⟩ => ⟨S100000x1, .f32⟩
  | .hbm, ⟨104, _⟩ => ⟨S100000x1, .f32⟩
  | .hbm, ⟨105, _⟩ => ⟨S_, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000, .f32⟩
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call4_cst : Ref sig .tc := ⟨.hbm, 96, rfl⟩
abbrev main_call4_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_9 : Ref sig .tc := ⟨.hbm, 105, rfl⟩
abbrev main_v71 : Ref sig .tc := ⟨.hbm, 106, rfl⟩
abbrev main_v72 : Ref sig .tc := ⟨.hbm, 107, rfl⟩
abbrev main_cst_10 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x30_S30x30_S100000x30_1_0_0_1_n_n_wf : DotDims.WF S100000x30 S30x30 S100000x30 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S100000x30_S30x10_S100000x10_1_0_0_1_n_n_wf : DotDims.WF S100000x30 S30x10 S100000x10 [1] [0] [0] [1] [] []
  dot_S100000x10_S10x10_S100000x10_1_0_0_1_n_n_wf : DotDims.WF S100000x10 S10x10 S100000x10 [1] [0] [0] [1] [] []
  dot_S100000x10_S10x1_S100000x1_1_0_0_1_n_n_wf : DotDims.WF S100000x10 S10x1 S100000x1 [1] [0] [0] [1] [] []

variable [Facts₀]

def dot_S100000x30_S30x30_S100000x30_1_0_0_1_n_n : DotDims S100000x30 S30x30 S100000x30 where
  lhsContracting := [1]
  rhsContracting := [0]
  lhsNonContracting := [0]
  rhsNonContracting := [1]
  lhsBatch := []
  rhsBatch := []
  wf := dot_S100000x30_S30x30_S100000x30_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S100000x30_S30x10_S100000x10_1_0_0_1_n_n : DotDims S100000x30 S30x10 S100000x10 where
  lhsContracting := [1]
  rhsContracting := [0]
  lhsNonContracting := [0]
  rhsNonContracting := [1]
  lhsBatch := []
  rhsBatch := []
  wf := dot_S100000x30_S30x10_S100000x10_1_0_0_1_n_n_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x1_S100000x1_1_0_0_1_n_n : DotDims S100000x10 S10x1 S100000x1 where
  lhsContracting := [1]
  rhsContracting := [0]
  lhsNonContracting := [0]
  rhsNonContracting := [1]
  lhsBatch := []
  rhsBatch := []
  wf := dot_S100000x10_S10x1_S100000x1_1_0_0_1_n_n_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«101079_j62629213110804_2_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.LayerArray.lean ====
/-
  A dense layer as one array. For a matrix A of M rows and K features, weights W (K by N) and a bias vector b of
  length N, the array whose entry (p, q) is the hidden layer's entry: the sum over k of A[p, k] * W[k, q], plus b[q],
  clamped below at zero. Stated once for any extents, so that the per-node messages (N = 64) and the per-node scalar
  weights (N = 1) of a message-passing step are the same definition at two widths.
-/
import proofs.«101079_j62629213110804_2_alg».proof.Proof.LibDenseLayer

noncomputable section

namespace Cert.Bridge.LayerArray

open Idealize.ShloMosaic Idealize.ShloMosaic.ValueIdx Cert.Bridge

variable {M K N : Nat}

/-- A vector as a function of its one coordinate. -/
abbrev vec (b : (⟨1, ![N]⟩ : Shape).Idx → EReal) : Fin N → EReal := fun q => b (ix1 q)

/-- The hidden layer of every row of A, as an array indexed by (row, output feature). -/
def rows (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun j => Spec.layer (LayerAt.mat A) (LayerAt.mat W) (vec b) (j 0) (j 1)

/-- Its entry at explicit coordinates. -/
theorem rows_apply (A : (⟨2, ![M, K]⟩ : Shape).Idx → EReal) (W : (⟨2, ![K, N]⟩ : Shape).Idx → EReal)
    (b : (⟨1, ![N]⟩ : Shape).Idx → EReal) (p : Fin M) (q : Fin N) :
    rows A W b (ix2 p q) = Spec.layer (LayerAt.mat A) (LayerAt.mat W) (vec b) p q := rfl

end Cert.Bridge.LayerArray

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.GcnSpec.lean ====
/-
  The graph convolution and the dense layers after it, as functions of the inputs on the extended reals.

  A graph has 100000 nodes; an edge list gives each edge a source word, a target word and a weight. A word names a node
  when read as a signed integer: a gather of node rows wraps a negative word by the node count and clamps the result into
  the node range (`node`), while an accumulation lands an edge on node n exactly when its target word read signed is n
  (`seg`). From a degree array the symmetric coefficient of an edge is dinv(deg[source]) · weight · dinv(deg[target])
  with dinv d = rsqrt d where d is positive and zero elsewhere (`coef`), and `spread X deg` sums, over the edges
  landing on n, row source(e) of X scaled by the edge's coefficient.

  Two arrangements of one convolution are stated.  The first (`aggK`, then a dense layer) sums the UNPROJECTED node rows
  over the real edges, adds the node's own row scaled by dinv(deg n)², with deg n the incoming weight plus one, and
  projects afterwards.  The second (`convR`) projects every node row first (`proj`) and sums over the edge list
  extended by one self-loop of weight one per node (`cat`), the degree being the incoming weight over the extended
  list.  Their equality for finite features, weights and projection is proved apart (GcnAlgebra.lean).
  Both are followed by the same four dense layers and a logistic (`tail`).
-/
import proofs.«101079_j62629213110804_2_alg».proof.Proof.LayerArray
import proofs.«101079_j62629213110804_2_alg».proof.Proof.LibRowGather
import Idealize.ShloMosaic.PureOps.Ideal
import Idealize.ShloMosaic.PureOps.Ideal.Laws
import Idealize.ShloMosaic.Lib.ValueIdx

noncomputable section

open scoped BigOperators

namespace Cert.Bridge.Gcn

open Idealize.ShloMosaic Idealize.ShloMosaic.ValueIdx Cert.Bridge

/-- The extended real the zero word of f32 denotes. -/
abbrev zero32 : EReal := Ideal.ofBits .f32 0x00000000#32
/-- The extended real the word 0x3F800000 of f32 denotes (one). -/
abbrev one32 : EReal := Ideal.ofBits .f32 0x3F800000#32

/-- A negative index word wraps around by the node count. -/
def wrap (v : BitVec 32) : BitVec 32 := Scalar.select (IntOp.cmpi .slt v 0#32) (IntOp.addi v 100000#32) v

/-- The node a gather reads for an index word: the wrapped word read signed, clamped into the node range. -/
def node (v : BitVec 32) : Fin 100000 := RowGather.rowOf (N := 100000) (by decide) (wrap v)

/-- The edges an accumulation lands on node n: those whose target word, read signed, is n. -/
def seg {E : Nat} (col : Fin E → BitVec 32) (n : Fin 100000) : Finset (Fin E) :=
  Finset.univ.filter fun e => (col e).toInt = (n.val : Int)

/-- The reciprocal square root of a positive degree, zero elsewhere. -/
def dinv (d : EReal) : EReal :=
  Scalar.select (FloatOps.cmpf (F := Ideal) (φ := .f32) .ogt d zero32) (Ideal.rsqrt d) zero32

section Edges

variable {E C : Nat} (ew : Fin E → EReal) (row col : Fin E → BitVec 32)

/-- The incoming weight of node n, accumulated into the zero word. -/
def wsum (n : Fin 100000) : EReal := zero32 + ∑ e ∈ seg col n, ew e

/-- The symmetric coefficient of edge e under the degrees `deg`. -/
def coef (deg : Fin 100000 → EReal) (e : Fin E) : EReal :=
  dinv (deg (node (row e))) * ew e * dinv (deg (node (col e)))

/-- Row source(e) of X scaled by the edge's coefficient, summed over the edges landing on n, into the zero word. -/
def spread (X : Fin 100000 → Fin C → EReal) (deg : Fin 100000 → EReal) (n : Fin 100000) (q : Fin C) : EReal :=
  zero32 + ∑ e ∈ seg col n, X (node (row e)) q * coef ew row col deg e

end Edges

/-- The degree with the self-loop added analytically: incoming weight over the real edges, plus one. -/
def degK (ew : Fin 3200000 → EReal) (col : Fin 3200000 → BitVec 32) (n : Fin 100000) : EReal := wsum ew col n + one32

/-- The aggregated, unprojected features: the real edges' contributions plus the node's own row scaled by dinv(deg)². -/
def aggK (h : Fin 100000 → Fin 30 → EReal) (ew : Fin 3200000 → EReal) (row col : Fin 3200000 → BitVec 32)
    (n : Fin 100000) (k : Fin 30) : EReal :=
  spread ew row col h (degK ew col) n k + h n k * (dinv (degK ew col n) * dinv (degK ew col n))

/-- An edge array extended by a node array: entry i is the edge array's for i below 3200000, else the node array's at
    i - 3200000. -/
def cat {α : Type} (a : Fin 3200000 → α) (b : Fin 100000 → α) : Fin 3300000 → α :=
  fun i => if hlt : i.val < 3200000 then a ⟨i.val, hlt⟩ else b ⟨i.val - 3200000, by omega⟩

/-- The self-loops' index words: node j's word is j. -/
def loopIdx : Fin 100000 → BitVec 32 := fun j => BitVec.ofNat 32 j.val

/-- The projected features: (h · W)[m, q]. -/
def proj (h : Fin 100000 → Fin 30 → EReal) (W : Fin 30 → Fin 30 → EReal) (m : Fin 100000) (q : Fin 30) : EReal :=
  ∑ k : Fin 30, h m k * W k q

/-- The convolution over the extended edge list, with the bias added: projected rows spread under the extended list's
    own degrees. -/
def convR (h : Fin 100000 → Fin 30 → EReal) (ew : Fin 3200000 → EReal) (row col : Fin 3200000 → BitVec 32)
    (W : Fin 30 → Fin 30 → EReal) (b : Fin 30 → EReal) (n : Fin 100000) (q : Fin 30) : EReal :=
  spread (cat ew fun _ => one32) (cat row loopIdx) (cat col loopIdx) (proj h W)
      (wsum (cat ew fun _ => one32) (cat col loopIdx)) n q
    + b q

/-- The four dense layers after the convolution and the logistic, for node n. -/
def tail (X0 : Fin 100000 → Fin 30 → EReal) (w1 : Fin 30 → Fin 10 → EReal) (b1 : Fin 10 → EReal)
    (w2 : Fin 10 → Fin 10 → EReal) (b2 : Fin 10 → EReal) (w3 : Fin 10 → Fin 10 → EReal) (b3 : Fin 10 → EReal)
    (w4 : Fin 10 → Fin 1 → EReal) (b4 : Fin 1 → EReal) (n : Fin 100000) : EReal :=
  Ideal.logistic (Spec.head (Spec.layer (Spec.layer (Spec.layer X0 w1 b1) w2 b2) w3 b3) w4 b4 n 0)

/-- The result array over the weights as arrays: node n's value is the tail of the convolution layer's output X0. -/
def outOf (X0 : Fin 100000 → Fin 30 → EReal)
    (x5 : (⟨2, ![30, 10]⟩ : Shape).Idx → EReal) (x6 : (⟨1, ![10]⟩ : Shape).Idx → EReal)
    (x7 : (⟨2, ![10, 10]⟩ : Shape).Idx → EReal) (x8 : (⟨1, ![10]⟩ : Shape).Idx → EReal)
    (x9 : (⟨2, ![10, 10]⟩ : Shape).Idx → EReal) (x10 : (⟨1, ![10]⟩ : Shape).Idx → EReal)
    (x11 : (⟨2, ![10, 1]⟩ : Shape).Idx → EReal) (x12 : (⟨1, ![1]⟩ : Shape).Idx → EReal) :
    (⟨1, ![100000]⟩ : Shape).Idx → EReal :=
  fun i => tail X0 (LayerAt.mat x5) (LayerArray.vec x6) (LayerAt.mat x7) (LayerArray.vec x8) (LayerAt.mat x9)
    (LayerArray.vec x10) (LayerAt.mat x11) (LayerArray.vec x12) (i 0)

/-- The source words of the edges: row 0 of the edge index array. -/
def erow (ei : IVec ⟨2, ![2, 3200000]⟩ 32) : Fin 3200000 → BitVec 32 := fun e => ei (ix2 (0 : Fin 2) e)
/-- The target words of the edges: row 1 of the edge index array. -/
def ecol (ei : IVec ⟨2, ![2, 3200000]⟩ 32) : Fin 3200000 → BitVec 32 := fun e => ei (ix2 (1 : Fin 2) e)

end Cert.Bridge.Gcn

end
-- ==== Proof.GcnAlgebra.lean ====
/-
  The two arrangements of the graph convolution agree for finite features, edge weights and projection weights.

  At a node n and output column q, the first arrangement is  Σ_k (Σ_{e → n} h[src e, k]·c_e + h[n, k]·d_n²)·W[k, q] + b[q]
  and the second  Σ_{e' → n} (Σ_k h[src e', k]·W[k, q])·c'_{e'} + b[q]  over the edge list extended by one self-loop
  per node. The extended list's sum over the edges landing on n splits into the real edges landing on n and the one
  self-loop of n (node j's loop word is j, which read signed is n only for j = n, and a gather reads node j for it);
  the degrees agree because the loop's weight is one; the loop's coefficient is d_n·1·d_n; and with every factor a real
  number, multiplication distributes over the finite sums and the two double sums are exchanged.
-/
import proofs.«101079_j62629213110804_2_alg».proof.Proof.GcnSpec
import Idealize.ShloMosaic.Lib.IdealHost

noncomputable section

open scoped BigOperators

namespace Cert.Bridge.Gcn

open Idealize.ShloMosaic Idealize.ShloMosaic.ValueIdx Cert.Bridge

/-! ## The extended edge list -/

/-- A real edge's position in the extended list. -/
def inl (e : Fin 3200000) : Fin 3300000 := ⟨e.val, by omega⟩
/-- Node j's self-loop's position in the extended list. -/
def inr (j : Fin 100000) : Fin 3300000 := ⟨3200000 + j.val, by omega⟩

theorem cat_inl {α : Type} (a : Fin 3200000 → α) (b : Fin 100000 → α) (e : Fin 3200000) : cat a b (inl e) = a e := by
  unfold cat inl
  rw [dif_pos e.isLt]

theorem cat_inr {α : Type} (a : Fin 3200000 → α) (b : Fin 100000 → α) (j : Fin 100000) : cat a b (inr j) = b j := by
  unfold cat inr
  rw [dif_neg (by show ¬ (3200000 + j.val < 3200000); omega)]
  exact congrArg b (Fin.ext (by show 3200000 + j.val - 3200000 = j.val; omega))

/-- A sum over a decidable part of the extended list is the sum over the real edges in it plus the sum over the
    self-loops in it. -/
theorem sum_filter_cat (P : Fin 3300000 → Prop) [DecidablePred P] (f : Fin 3300000 → EReal) :
    ∑ i ∈ Finset.univ.filter P, f i
      = ∑ e ∈ Finset.univ.filter (fun e => P (inl e)), f (inl e) + ∑ j ∈ Finset.univ.filter (fun j => P (inr j)), f (inr j) := by
  rw [Finset.sum_filter, Finset.sum_filter, Finset.sum_filter]
  exact Fin.sum_univ_add (a := 3200000) (b := 100000) (fun i => if P i then f i else 0)

/-- Node j's loop word, read signed, is j. -/
theorem loopIdx_toInt (j : Fin 100000) : (loopIdx j).toInt = (j.val : Int) := by
  unfold loopIdx
  have hj := j.isLt
  rw [BitVec.toInt_eq_toNat_cond, BitVec.toNat_ofNat]
  have h1 : j.val % 2 ^ 32 = j.val := Nat.mod_eq_of_lt (by omega)
  rw [h1, if_pos (by omega)]

/-- A gather reads node j for node j's loop word: it is not negative, and it is inside the node range. -/
theorem node_loopIdx (j : Fin 100000) : node (loopIdx j) = j := by
  have hj : (loopIdx j).toInt = (j.val : Int) := loopIdx_toInt j
  have hs : (loopIdx j).slt 0#32 = false := by
    rw [BitVec.slt, hj]
    simp
  have hw : wrap (loopIdx j) = loopIdx j := by
    unfold wrap IntOp.cmpi Scalar.select
    rw [hs]
    simp
  unfold node RowGather.rowOf
  refine Fin.ext ?_
  show min (wrap (loopIdx j)).toInt.toNat (100000 - 1) = j.val
  rw [hw, hj]
  have := j.isLt
  simp only [Int.toNat_natCast]
  omega

/-- The extended list's edges landing on n: the real edges landing on n, and n's own loop. -/
theorem sum_seg_cat (col : Fin 3200000 → BitVec 32) (n : Fin 100000) (f : Fin 3300000 → EReal) :
    ∑ e' ∈ seg (cat col loopIdx) n, f e' = ∑ e ∈ seg col n, f (inl e) + f (inr n) := by
  unfold seg
  rw [sum_filter_cat]
  simp only [cat_inl, cat_inr]
  have hs : (Finset.univ.filter fun j : Fin 100000 => (loopIdx j).toInt = (n.val : Int)) = {n} := by
    ext j
    simp only [Finset.mem_filter, Finset.mem_univ, true_and, Finset.mem_singleton, loopIdx_toInt]
    constructor
    · intro h; exact Fin.ext (by exact_mod_cast h)
    · intro h; rw [h]
  rw [hs, Finset.sum_singleton]

/-! ## Real values -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem zero32_eq : zero32 = ((0 : ℝ) : EReal) := by
  show Ideal.ofBits .f32 0x00000000#32 = _
  rw [Ideal.ofBits_zero_f32]; rfl

theorem one32_eq : one32 = ((1 : ℝ) : EReal) := by
  show Ideal.ofBits .f32 0x3F800000#32 = _
  rw [Ideal.ofBits_one_f32]; rfl

/-- The reciprocal square root of a real degree where positive, zero elsewhere, is a real number. -/
theorem dinv_coe (r : ℝ) : ∃ s : ℝ, dinv (r : EReal) = (s : EReal) := by
  unfold dinv Scalar.select
  by_cases hr : 0 < r
  · split_ifs
    · refine ⟨(Real.sqrt r)⁻¹, ?_⟩
      rw [Ideal.rsqrt_coe, if_neg (not_lt.mpr hr.le), if_neg hr.ne']
    · exact ⟨0, zero32_eq⟩
  · have hc : FloatOps.cmpf (F := Ideal) (φ := .f32) .ogt (r : EReal) zero32 ≠ 1 := by
      show Ideal.cmp .ogt (r : EReal) zero32 ≠ 1
      unfold Ideal.cmp
      rw [zero32_eq]
      simp only [EReal.coe_lt_coe_iff]
      rw [decide_eq_false hr]
      decide
    rw [if_neg hc]
    exact ⟨0, zero32_eq⟩

/-! ## The extended list's degrees, coefficients and sums -/

/-- The extended list's degrees are the real edges' incoming weight plus one: the loop's weight is one. -/
theorem wsum_cat (ew : Fin 3200000 → EReal) (col : Fin 3200000 → BitVec 32) (n : Fin 100000) :
    wsum (cat ew fun _ => one32) (cat col loopIdx) n = degK ew col n := by
  unfold degK wsum
  rw [sum_seg_cat]
  simp only [cat_inl, cat_inr]
  rw [add_assoc]

theorem coef_cat_inl (ew : Fin 3200000 → EReal) (row col : Fin 3200000 → BitVec 32) (deg : Fin 100000 → EReal)
    (e : Fin 3200000) :
    coef (cat ew fun _ => one32) (cat row loopIdx) (cat col loopIdx) deg (inl e) = coef ew row col deg e := by
  unfold coef
  simp only [cat_inl]

theorem coef_cat_inr (ew : Fin 3200000 → EReal) (row col : Fin 3200000 → BitVec 32) (deg : Fin 100000 → EReal)
    (n : Fin 100000) :
    coef (cat ew fun _ => one32) (cat row loopIdx) (cat col loopIdx) deg (inr n) = dinv (deg n) * one32 * dinv (deg n) := by
  unfold coef
  simp only [cat_inr, node_loopIdx]

/-- A spread over the extended list: the real edges landing on n, and n's own row under the loop's coefficient. -/
theorem spread_cat {C : Nat} (ew : Fin 3200000 → EReal) (row col : Fin 3200000 → BitVec 32)
    (X : Fin 100000 → Fin C → EReal) (deg : Fin 100000 → EReal) (n : Fin 100000) (q : Fin C) :
    spread (cat ew fun _ => one32) (cat row loopIdx) (cat col loopIdx) X deg n q
      = zero32 + (∑ e ∈ seg col n, X (node (row e)) q * coef ew row col deg e
          + X n q * (dinv (deg n) * one32 * dinv (deg n))) := by
  unfold spread
  rw [sum_seg_cat]
  simp only [cat_inl, cat_inr, coef_cat_inl, coef_cat_inr, node_loopIdx]

/-! ## The identity over the reals -/

/-- Over the reals: projecting the aggregate is aggregating the projections. -/
theorem real_core {ι : Type*} (S : Finset ι) (a : ι → Fin 30 → ℝ) (c : ι → ℝ) (hn W : Fin 30 → ℝ) (d : ℝ) :
    ∑ k : Fin 30, (0 + ∑ e ∈ S, a e k * c e + hn k * (d * d)) * W k
      = 0 + (∑ e ∈ S, (∑ k : Fin 30, a e k * W k) * c e + (∑ k : Fin 30, hn k * W k) * (d * 1 * d)) := by
  simp only [zero_add, mul_one, add_mul, Finset.sum_add_distrib, Finset.sum_mul]
  rw [Finset.sum_comm]
  refine congrArg₂ (· + ·) ?_ ?_
  · exact Finset.sum_congr rfl (fun e _ => Finset.sum_congr rfl (fun k _ => by ring))
  · exact Finset.sum_congr rfl (fun k _ => by ring)

/-- Projecting after aggregating over the real edges with an analytic self-loop term is aggregating the projected
    features over the edge list extended by the self-loops. -/
theorem head_aggK_eq_convR (h : Fin 100000 → Fin 30 → EReal) (ew : Fin 3200000 → EReal) (row col : Fin 3200000 → BitVec 32)
    (W : Fin 30 → Fin 30 → EReal) (b : Fin 30 → EReal)
    (hh : ∀ n k, ∃ r : ℝ, h n k = (r : EReal)) (hew : ∀ e, ∃ r : ℝ, ew e = (r : EReal))
    (hW : ∀ k q, ∃ r : ℝ, W k q = (r : EReal)) (n : Fin 100000) (q : Fin 30) :
    Spec.head (aggK h ew row col) W b n q = convR h ew row col W b n q := by
  classical
  choose hr hhr using hh
  choose er her using hew
  choose Wr hWr using hW
  -- the degrees and their reciprocal roots are real numbers
  have hdeg : ∀ m, degK ew col m = (((0 + ∑ e ∈ seg col m, er e) + 1 : ℝ) : EReal) := by
    intro m
    unfold degK wsum
    rw [zero32_eq, one32_eq, Finset.sum_congr rfl (fun e _ => her e), ← coe_sum, ← EReal.coe_add, ← EReal.coe_add]
  have hdinv : ∀ m, ∃ s : ℝ, dinv (degK ew col m) = (s : EReal) := fun m => by rw [hdeg m]; exact dinv_coe _
  choose dr hdr using hdinv
  have hcoef : ∀ e, coef ew row col (degK ew col) e = ((dr (node (row e)) * er e * dr (node (col e)) : ℝ) : EReal) := by
    intro e
    unfold coef
    rw [hdr, hdr, her, ← EReal.coe_mul, ← EReal.coe_mul]
  unfold Spec.head convR
  refine congrArg (· + b q) ?_
  rw [show wsum (cat ew fun _ => one32) (cat col loopIdx) = degK ew col from funext (wsum_cat ew col), spread_cat]
  unfold aggK spread proj
  simp only [hhr, hWr, hcoef, hdr, zero32_eq, one32_eq, ← EReal.coe_mul, ← EReal.coe_add, ← coe_sum]
  exact congrArg (fun x : ℝ => (x : EReal)) (real_core (seg col n) (fun e k => hr (node (row e)) k)
    (fun e => dr (node (row e)) * er e * dr (node (col e))) (fun k => hr n k) (fun k => Wr k q) (dr n))

end Cert.Bridge.Gcn

end
-- ==== Proof.KPayload.lean ====
/-
  One block of rows through the fused body. The body multiplies a block of 5000 aggregated rows by the convolution
  weights, adds the bias row and clamps at zero, runs three more clamped dense layers and a last unclamped one, and
  applies the logistic; every change of float format in between is the identity on the extended reals. Read at row p,
  what it stores is the logistic of the last layer's entry (p, 0) of the chain of dense layers of the block's rows.

  The body loads and stores whole buffers, so what it leaves is its payload of the buffers' contents. The payload is
  cut here into the block as the first product's operand, four hidden layers each over the one before, and the last
  layer with the logistic; the two generated payload definitions unfold to that nesting. A hidden layer spelt the
  body's way is, as a matrix, the specification's layer of its operands' matrices, so the four chain by congruence, and
  the last line is the unclamped layer's reading at (p, 0) under the logistic.
-/
import proofs.«101079_j62629213110804_2_alg».proof.Proof.Gen.KernelIdeal.Frame
import proofs.«101079_j62629213110804_2_alg».proof.Proof.LibDenseLayer

noncomputable section

open scoped BigOperators

namespace Cert.KernelIdeal.Pay

open Idealize.ShloMosaic Idealize.ShloMosaic.ValueIdx Cert.KernelIdeal Cert.Bridge

/-- The zero offsets of a rank-two rectangle, as the constant function. -/
theorem zeros2 : (![0, 0] : Fin 2 → Nat) = fun _ => 0 := funext fun a => by fin_cases a <;> rfl

section Generic

variable {M K N : Nat}

/-- A hidden layer as the body spells it: the left operand already in the narrow format, the weights narrowed, the
    product taken into a zero accumulator, the bias row cast to its own shape and spread over the rows, the clamp
    against a splat of the zero word, and the result narrowed. -/
def hid (dd : DotDims ⟨2, ![M, K]⟩ ⟨2, ![K, N]⟩ ⟨2, ![M, N]⟩)
    (A : FVec Ideal ⟨2, ![M, K]⟩ .bf16) (W : FVec Ideal ⟨2, ![K, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (hw ho : FTy.bf16.bits < FTy.f32.bits) : FVec Ideal ⟨2, ![M, N]⟩ .bf16 :=
  truncf .bf16 (maximumf (addf (matmul dd none A (truncf .bf16 W hw) (constant (F := Ideal) ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32))) ho

/-- Every narrowing and the cast are the identity on the extended reals, so as a matrix the body's hidden layer is the
    specification's layer of the operands' matrices. -/
theorem hid_mat (dd : DotDims ⟨2, ![M, K]⟩ ⟨2, ![K, N]⟩ ⟨2, ![M, N]⟩) (hd : dd = DotDims.plain M K N)
    (A : FVec Ideal ⟨2, ![M, K]⟩ .bf16) (W : FVec Ideal ⟨2, ![K, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (hw ho : FTy.bf16.bits < FTy.f32.bits) :
    LayerAt.mat (hid dd A W b hs hb hw ho) = Spec.layer (LayerAt.mat A) (LayerAt.mat W) (LayerAt.row b) := by
  subst hd
  unfold hid
  rw [shapeCast_self]
  exact LayerAt.layer_mat none A (truncf .bf16 W hw) b hb ho

/-- The last, unclamped layer as the body spells it, read at an entry. -/
theorem last_apply (dd : DotDims ⟨2, ![M, K]⟩ ⟨2, ![K, N]⟩ ⟨2, ![M, N]⟩) (hd : dd = DotDims.plain M K N)
    (A : FVec Ideal ⟨2, ![M, K]⟩ .bf16) (W : FVec Ideal ⟨2, ![K, N]⟩ .f32) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (hw : FTy.bf16.bits < FTy.f32.bits) (p : Fin M) (q : Fin N) :
    addf (matmul dd none A (truncf .bf16 W hw) (constant (F := Ideal) ⟨2, ![M, N]⟩ .f32 0x00000000#32))
        (broadcastTo ⟨2, ![M, N]⟩ (shapeCast ⟨2, ![1, N]⟩ b hs) hb) (ix2 p q)
      = Spec.head (LayerAt.mat A) (LayerAt.mat W) (LayerAt.row b) p q := by
  subst hd
  rw [shapeCast_self]
  exact LayerAt.head_apply none A (truncf .bf16 W hw) b hb p q

end Generic

/-- The four printed dimension-number records are the plain product's. -/
theorem dot1_eq : dot_S5000x30_S30x30_S5000x30_1_0_0_1_n_n = DotDims.plain 5000 30 30 := rfl
theorem dot2_eq : dot_S5000x30_S30x10_S5000x10_1_0_0_1_n_n = DotDims.plain 5000 30 10 := rfl
theorem dot3_eq : dot_S5000x10_S10x10_S5000x10_1_0_0_1_n_n = DotDims.plain 5000 10 10 := rfl
theorem dot4_eq : dot_S5000x10_S10x1_S5000x1_1_0_0_1_n_n = DotDims.plain 5000 10 1 := rfl

section Body

variable (x0 : Vec Ideal S5000x30 .f32) (x1 : Vec Ideal S30x30 .f32) (x2 : Vec Ideal S1x30 .f32)
    (x3 : Vec Ideal S30x10 .f32) (x4 : Vec Ideal S1x10 .f32) (x5 : Vec Ideal S10x10 .f32) (x6 : Vec Ideal S1x10 .f32)
    (x7 : Vec Ideal S10x10 .f32) (x8 : Vec Ideal S1x10 .f32) (x9 : Vec Ideal S10x1 .f32) (x10 : Vec Ideal S1x1 .f32)

/-- The block of rows as the first product's left operand: cast to its own shape and narrowed. -/
def input0 : FVec Ideal S5000x30 .bf16 := truncf .bf16 (shapeCast S5000x30 x0 Gen.shapeCasts_S5000x30_S5000x30) Gen.bitsLt_bf16_f32

/-- The convolution's projection, bias and clamp: the first hidden layer of the block. -/
def hidden1 : FVec Ideal S5000x30 .bf16 :=
  hid (M := 5000) (K := 30) (N := 30) dot_S5000x30_S30x30_S5000x30_1_0_0_1_n_n (input0 x0) x1 x2
    Gen.shapeCasts_S1x30_S1x30 Gen.broadcasts_S1x30_S5000x30 Gen.bitsLt_bf16_f32 Gen.bitsLt_bf16_f32
/-- The second hidden layer. -/
def hidden2 : FVec Ideal S5000x10 .bf16 :=
  hid (M := 5000) (K := 30) (N := 10) dot_S5000x30_S30x10_S5000x10_1_0_0_1_n_n (hidden1 x0 x1 x2) x3 x4
    Gen.shapeCasts_S1x10_S1x10 Gen.broadcasts_S1x10_S5000x10 Gen.bitsLt_bf16_f32 Gen.bitsLt_bf16_f32
/-- The third hidden layer. -/
def hidden3 : FVec Ideal S5000x10 .bf16 :=
  hid (M := 5000) (K := 10) (N := 10) dot_S5000x10_S10x10_S5000x10_1_0_0_1_n_n (hidden2 x0 x1 x2 x3 x4) x5 x6
    Gen.shapeCasts_S1x10_S1x10 Gen.broadcasts_S1x10_S5000x10 Gen.bitsLt_bf16_f32 Gen.bitsLt_bf16_f32
/-- The fourth hidden layer: its product is the first payload's value, its bias and clamp open the second. -/
def hidden4 : FVec Ideal S5000x10 .bf16 :=
  hid (M := 5000) (K := 10) (N := 10) dot_S5000x10_S10x10_S5000x10_1_0_0_1_n_n (hidden3 x0 x1 x2 x3 x4 x5 x6) x7 x8
    Gen.shapeCasts_S1x10_S1x10 Gen.broadcasts_S1x10_S5000x10 Gen.bitsLt_bf16_f32 Gen.bitsLt_bf16_f32

/-- The body's payload is the logistic of the last layer over the fourth hidden layer: the two payload definitions
    unfold to exactly this nesting. -/
theorem pay_eq :
    Gen.k0_pay1 (F := Ideal) (Gen.k0_pay2 x0 x1 x2 x3 x4 x5 x6 x7) x8 x9 x10
      = logistic (addf (matmul dot_S5000x10_S10x1_S5000x1_1_0_0_1_n_n none (hidden4 x0 x1 x2 x3 x4 x5 x6 x7 x8)
            (truncf .bf16 x9 Gen.bitsLt_bf16_f32) (constant (F := Ideal) S5000x1 .f32 0x00000000#32))
          (broadcastTo S5000x1 (shapeCast S1x1 x10 Gen.shapeCasts_S1x1_S1x1) Gen.broadcasts_S1x1_S5000x1)) := rfl

/-- The first product's left operand has the block's entries. -/
theorem input0_mat : LayerAt.mat (input0 x0) = LayerAt.mat x0 := by
  unfold input0
  rw [shapeCast_self]
  rfl

/-- Layer by layer, the body's hidden layers are the specification's, each over the one before. -/
theorem hidden1_mat : LayerAt.mat (hidden1 x0 x1 x2) = Spec.layer (LayerAt.mat x0) (LayerAt.mat x1) (LayerAt.row x2) :=
  (hid_mat _ dot1_eq (input0 x0) x1 x2 _ _ _ _).trans
    (congrArg (fun X => Spec.layer X (LayerAt.mat x1) (LayerAt.row x2)) (input0_mat x0))

theorem hidden2_mat : LayerAt.mat (hidden2 x0 x1 x2 x3 x4)
    = Spec.layer (Spec.layer (LayerAt.mat x0) (LayerAt.mat x1) (LayerAt.row x2)) (LayerAt.mat x3) (LayerAt.row x4) :=
  (hid_mat _ dot2_eq (hidden1 x0 x1 x2) x3 x4 _ _ _ _).trans
    (congrArg (fun X => Spec.layer X (LayerAt.mat x3) (LayerAt.row x4)) (hidden1_mat x0 x1 x2))

theorem hidden3_mat : LayerAt.mat (hidden3 x0 x1 x2 x3 x4 x5 x6)
    = Spec.layer (Spec.layer (Spec.layer (LayerAt.mat x0) (LayerAt.mat x1) (LayerAt.row x2)) (LayerAt.mat x3) (LayerAt.row x4))
        (LayerAt.mat x5) (LayerAt.row x6) :=
  (hid_mat _ dot3_eq (hidden2 x0 x1 x2 x3 x4) x5 x6 _ _ _ _).trans
    (congrArg (fun X => Spec.layer X (LayerAt.mat x5) (LayerAt.row x6)) (hidden2_mat x0 x1 x2 x3 x4))

theorem hidden4_mat : LayerAt.mat (hidden4 x0 x1 x2 x3 x4 x5 x6 x7 x8)
    = Spec.layer (Spec.layer (Spec.layer (Spec.layer (LayerAt.mat x0) (LayerAt.mat x1) (LayerAt.row x2)) (LayerAt.mat x3) (LayerAt.row x4))
        (LayerAt.mat x5) (LayerAt.row x6)) (LayerAt.mat x7) (LayerAt.row x8) :=
  (hid_mat _ dot3_eq (hidden3 x0 x1 x2 x3 x4 x5 x6) x7 x8 _ _ _ _).trans
    (congrArg (fun X => Spec.layer X (LayerAt.mat x7) (LayerAt.row x8)) (hidden3_mat x0 x1 x2 x3 x4 x5 x6))

end Body

/-- What the body leaves in the output block, at row p, as dense layers of the input blocks. -/
theorem out_apply (x0 : Vec Ideal S5000x30 .f32) (x1 : Vec Ideal S30x30 .f32) (x2 : Vec Ideal S1x30 .f32)
    (x3 : Vec Ideal S30x10 .f32) (x4 : Vec Ideal S1x10 .f32) (x5 : Vec Ideal S10x10 .f32) (x6 : Vec Ideal S1x10 .f32)
    (x7 : Vec Ideal S10x10 .f32) (x8 : Vec Ideal S1x10 .f32) (x9 : Vec Ideal S10x1 .f32) (x10 : Vec Ideal S1x1 .f32)
    (p : Fin 5000) :
    Gen.out0_11 (F := Ideal) x0 x1 x2 x3 x4 x5 x6 x7 x8 x9 x10 (ix2 p (0 : Fin 1))
      = Ideal.logistic (Spec.head (Spec.layer (Spec.layer (Spec.layer (Spec.layer (LayerAt.mat x0) (LayerAt.mat x1) (LayerAt.row x2))
          (LayerAt.mat x3) (LayerAt.row x4)) (LayerAt.mat x5) (LayerAt.row x6)) (LayerAt.mat x7) (LayerAt.row x8))
          (LayerAt.mat x9) (LayerAt.row x10) p 0) := by
  unfold Gen.out0_11
  rw [View.canon_unit_zero zeros2]
  simp only [View.ld_unit_zero (S := S5000x30) zeros2, View.ld_unit_zero (S := S30x30) zeros2, View.ld_unit_zero (S := S1x30) zeros2,
    View.ld_unit_zero (S := S30x10) zeros2, View.ld_unit_zero (S := S1x10) zeros2, View.ld_unit_zero (S := S10x10) zeros2,
    View.ld_unit_zero (S := S10x1) zeros2, View.ld_unit_zero (S := S1x1) zeros2]
  rw [pay_eq]
  refine congrArg Ideal.logistic ?_
  refine (last_apply (M := 5000) (K := 10) (N := 1) _ dot4_eq (hidden4 x0 x1 x2 x3 x4 x5 x6 x7 x8) x9 x10 _ _ _ p 0).trans ?_
  exact congrArg (fun X => Spec.head X (LayerAt.mat x9) (LayerAt.row x10) p 0) (hidden4_mat x0 x1 x2 x3 x4 x5 x6 x7 x8)

end Cert.KernelIdeal.Pay

end
-- ==== Proof.KRun.lean ====
/-
  The kernel program's run, read as a value. The region's grid has 20 points; point t stages rows 5000·t … 5000·t+4999
  of the aggregated features and the whole weight arrays (the biases as one-row matrices), and writes back the body's
  block of 5000 results, so the blocks tile the result column; the line after the region drops the column's unit axis.
  Node n's result is therefore the dense layers and the logistic of row n of the aggregated features as the region
  finds them.

  In order: where each window's block sits in its array (decided once over the 20 points); each weight block is the
  whole weight array as launched, each bias block the bias vector behind a unit axis (the five reshapes are the last
  host operations before the region, so they are split off and read on their own); the block of aggregated rows is
  rows 5000·t … of the array; a dense layer's row p depends on row p of its input alone, so the body's block of
  results is the whole array's results at those rows; the 20 blocks cover the column; the closing reshape reads
  entry (n, 0) at n.
-/
import proofs.«101079_j62629213110804_2_alg».proof.Proof.Gen.KernelIdeal.Frame
import proofs.«101079_j62629213110804_2_alg».proof.Proof.GcnSpec
import proofs.«101079_j62629213110804_2_alg».proof.Proof.KPayload
import Idealize.ShloMosaic.Lib.Pipeline.Value
import Idealize.ShloMosaic.Lib.ValueLayout

set_option maxRecDepth 16384

noncomputable section

open scoped BigOperators

namespace Cert.KernelIdeal.KRun

open Idealize.ShloMosaic Idealize.ShloMosaic.TcCoe Idealize.SL.Sem Idealize.ShloMosaic.ValueIdx Cert.KernelIdeal Cert.Bridge

section Blocks

variable (m : (ℓ : Loc nD τ sig) → Buf (Elt Ideal) ℓ)

/-- The row windows (the aggregated features and the result column) take block t at point t. -/
theorem idx_rows : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- The weight and bias windows take the one whole-array block at every point. -/
theorem idx_whole : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Window 1's block, at every point, is the whole weight array as launched. -/
theorem blk1 (c : Dev nD) (t : Fin cfg0.N) (y : S30x30.Idx) :
    (Gen.iblk m c 1 t : Vec Ideal S30x30 .f32) y = (m ((c.tc : Thread nD τ).loc main_arg3)) y := by
  obtain ⟨⟨e0, e1⟩, -⟩ := idx_whole t
  unfold Gen.iblk
  rw [View.read_apply]
  show Gen.V m c main_arg3 (((cfg0.win 1).blk t).view.emb y) = _
  rw [Gen.V_main_arg3]
  congr 1
  funext a; apply Fin.ext
  match a with
  | ⟨0, _⟩ => show win0_1.index t (0 : Fin 2) * 30 + 1 * (y 0).val = (y 0).val; omega
  | ⟨1, _⟩ => show win0_1.index t (1 : Fin 2) * 30 + 1 * (y 1).val = (y 1).val; omega

/-- Window 3's block, at every point, is the whole weight array as launched. -/
theorem blk3 (c : Dev nD) (t : Fin cfg0.N) (y : S30x10.Idx) :
    (Gen.iblk m c 3 t : Vec Ideal S30x10 .f32) y = (m ((c.tc : Thread nD τ).loc main_arg5)) y := by
  obtain ⟨-, -, ⟨e0, e1⟩, -⟩ := idx_whole t
  unfold Gen.iblk
  rw [View.read_apply]
  show Gen.V m c main_arg5 (((cfg0.win 3).blk t).view.emb y) = _
  rw [Gen.V_main_arg5]
  congr 1
  funext a; apply Fin.ext
  match a with
  | ⟨0, _⟩ => show win0_3.index t (0 : Fin 2) * 30 + 1 * (y 0).val = (y 0).val; omega
  | ⟨1, _⟩ => show win0_3.index t (1 : Fin 2) * 10 + 1 * (y 1).val = (y 1).val; omega

/-- Window 5's block, at every point, is the whole weight array as launched. -/
theorem blk5 (c : Dev nD) (t : Fin cfg0.N) (y : S10x10.Idx) :
    (Gen.iblk m c 5 t : Vec Ideal S10x10 .f32) y = (m ((c.tc : Thread nD τ).loc main_arg7)) y := by
  obtain ⟨-, -, -, -, ⟨e0, e1⟩, -⟩ := idx_whole t
  unfold Gen.iblk
  rw [View.read_apply]
  show Gen.V m c main_arg7 (((cfg0.win 5).blk t).view.emb y) = _
  rw [Gen.V_main_arg7]
  congr 1
  funext a; apply Fin.ext
  match a with
  | ⟨0, _⟩ => show win0_5.index t (0 : Fin 2) * 10 + 1 * (y 0).val = (y 0).val; omega
  | ⟨1, _⟩ => show win0_5.index t (1 : Fin 2) * 10 + 1 * (y 1).val = (y 1).val; omega

/-- Window 7's block, at every point, is the whole weight array as launched. -/
theorem blk7 (c : Dev nD) (t : Fin cfg0.N) (y : S10x10.Idx) :
    (Gen.iblk m c 7 t : Vec Ideal S10x10 .f32) y = (m ((c.tc : Thread nD τ).loc main_arg9)) y := by
  obtain ⟨-, -, -, -, -, -, ⟨e0, e1⟩, -⟩ := idx_whole t
  unfold Gen.iblk
  rw [View.read_apply]
  show Gen.V m c main_arg9 (((cfg0.win 7).blk t).view.emb y) = _
  rw [Gen.V_main_arg9]
  congr 1
  funext a; apply Fin.ext
  match a with
  | ⟨0, _⟩ => show win0_7.index t (0 : Fin 2) * 10 + 1 * (y 0).val = (y 0).val; omega
  | ⟨1, _⟩ => show win0_7.index t (1 : Fin 2) * 10 + 1 * (y 1).val = (y 1).val; omega

/-- Window 9's block, at every point, is the whole weight array as launched. -/
theorem blk9 (c : Dev nD) (t : Fin cfg0.N) (y : S10x1.Idx) :
    (Gen.iblk m c 9 t : Vec Ideal S10x1 .f32) y = (m ((c.tc : Thread nD τ).loc main_arg11)) y := by
  obtain ⟨-, -, -, -, -, -, -, -, ⟨e0, e1⟩, -⟩ := idx_whole t
  unfold Gen.iblk
  rw [View.read_apply]
  show Gen.V m c main_arg11 (((cfg0.win 9).blk t).view.emb y) = _
  rw [Gen.V_main_arg11]
  congr 1
  funext a; apply Fin.ext
  match a with
  | ⟨0, _⟩ => show win0_9.index t (0 : Fin 2) * 10 + 1 * (y 0).val = (y 0).val; omega
  | ⟨1, _⟩ => show win0_9.index t (1 : Fin 2) * 1 + 1 * (y 1).val = (y 1).val; omega

/-- Running two stretches of host operations one after the other is running the first, then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The host operations before the region, but for the last five. -/
def preOps : List (HloOp τ sig (Elt Ideal)) :=
  List.take 60 (List.flatten [Gen.hostOps0, Gen.hostOps0_1, Gen.hostOps0_2])

/-- The last five host operations before the region: each puts a unit axis in front of a bias vector. -/
abbrev biasOps : List (HloOp τ sig (Elt Ideal)) :=
  [ StableHlo.reshape main_arg4 main_v47 rfl Gen.shapeCasts_S30_S1x30,
    StableHlo.reshape main_arg6 main_v48 rfl Gen.shapeCasts_S10_S1x10,
    StableHlo.reshape main_arg8 main_v49 rfl Gen.shapeCasts_S10_S1x10,
    StableHlo.reshape main_arg10 main_v50 rfl Gen.shapeCasts_S10_S1x10,
    StableHlo.reshape main_arg12 main_v51 rfl Gen.shapeCasts_S1_S1x1 ]

theorem ops_split : (List.flatten [Gen.hostOps0, Gen.hostOps0_1, Gen.hostOps0_2] : List (HloOp τ sig (Elt Ideal))) = preOps ++ biasOps :=
  (List.take_append_drop 60 _).symm.trans (congrArg (preOps ++ ·) (rfl : List.drop 60 (List.flatten [Gen.hostOps0, Gen.hostOps0_1, Gen.hostOps0_2] : List (HloOp τ sig (Elt Ideal))) = biasOps))

/-- What the region finds is what the last five operations make of what the earlier ones leave. -/
theorem V0_split (c : Dev nD) : Gen.V0 m c = StableHlo.after biasOps (StableHlo.after preOps (fun b => m (c, b))) :=
  (congrArg (fun l => StableHlo.after l (fun b => m (c, b))) ops_split).trans (after_append _ _ _)

/-- The earlier host operations leave the bias vector main_arg4 as launched. -/
theorem pre_main_arg4 (c : Dev nD) :
    StableHlo.after preOps (fun b => m (c, b)) (Proc.devRef .tc main_arg4) = (m ((c.tc : Thread nD τ).loc main_arg4)) := by
  have h := Gen.V_main_arg4 m c
  change Gen.V0 m c (Proc.devRef .tc main_arg4) = _ at h
  rw [V0_split] at h
  refine Eq.trans ?_ h
  generalize StableHlo.after preOps (fun b => m (c, b)) = V3
  symm
  after_results

/-- The one-row matrix the region finds in window 2's array is the bias vector with a unit axis put in front. -/
theorem V_main_v47 (c : Dev nD) : (Gen.V m c main_v47 : S1x30.Idx → EReal) = shapeCast S1x30 (m ((c.tc : Thread nD τ).loc main_arg4)) Gen.shapeCasts_S30_S1x30 := by
  have h := pre_main_arg4 m c
  show Gen.V0 m c (Proc.devRef .tc main_v47) = _
  rw [V0_split]
  generalize StableHlo.after preOps (fun b => m (c, b)) = V3 at h ⊢
  after_results
  rw [h]
  rfl

/-- The earlier host operations leave the bias vector main_arg6 as launched. -/
theorem pre_main_arg6 (c : Dev nD) :
    StableHlo.after preOps (fun b => m (c, b)) (Proc.devRef .tc main_arg6) = (m ((c.tc : Thread nD τ).loc main_arg6)) := by
  have h := Gen.V_main_arg6 m c
  change Gen.V0 m c (Proc.devRef .tc main_arg6) = _ at h
  rw [V0_split] at h
  refine Eq.trans ?_ h
  generalize StableHlo.after preOps (fun b => m (c, b)) = V3
  symm
  after_results

/-- The one-row matrix the region finds in window 4's array is the bias vector with a unit axis put in front. -/
theorem V_main_v48 (c : Dev nD) : (Gen.V m c main_v48 : S1x10.Idx → EReal) = shapeCast S1x10 (m ((c.tc : Thread nD τ).loc main_arg6)) Gen.shapeCasts_S10_S1x10 := by
  have h := pre_main_arg6 m c
  show Gen.V0 m c (Proc.devRef .tc main_v48) = _
  rw [V0_split]
  generalize StableHlo.after preOps (fun b => m (c, b)) = V3 at h ⊢
  after_results
  rw [h]
  rfl

/-- The earlier host operations leave the bias vector main_arg8 as launched. -/
theorem pre_main_arg8 (c : Dev nD) :
    StableHlo.after preOps (fun b => m (c, b)) (Proc.devRef .tc main_arg8) = (m ((c.tc : Thread nD τ).loc main_arg8)) := by
  have h := Gen.V_main_arg8 m c
  change Gen.V0 m c (Proc.devRef .tc main_arg8) = _ at h
  rw [V0_split] at h
  refine Eq.trans ?_ h
  generalize StableHlo.after preOps (fun b => m (c, b)) = V3
  symm
  after_results

/-- The one-row matrix the region finds in window 6's array is the bias vector with a unit axis put in front. -/
theorem V_main_v49 (c : Dev nD) : (Gen.V m c main_v49 : S1x10.Idx → EReal) = shapeCast S1x10 (m ((c.tc : Thread nD τ).loc main_arg8)) Gen.shapeCasts_S10_S1x10 := by
  have h := pre_main_arg8 m c
  show Gen.V0 m c (Proc.devRef .tc main_v49) = _
  rw [V0_split]
  generalize StableHlo.after preOps (fun b => m (c, b)) = V3 at h ⊢
  after_results
  rw [h]
  rfl

/-- The earlier host operations leave the bias vector main_arg10 as launched. -/
theorem pre_main_arg10 (c : Dev nD) :
    StableHlo.after preOps (fun b => m (c, b)) (Proc.devRef .tc main_arg10) = (m ((c.tc : Thread nD τ).loc main_arg10)) := by
  have h := Gen.V_main_arg10 m c
  change Gen.V0 m c (Proc.devRef .tc main_arg10) = _ at h
  rw [V0_split] at h
  refine Eq.trans ?_ h
  generalize StableHlo.after preOps (fun b => m (c, b)) = V3
  symm
  after_results

/-- The one-row matrix the region finds in window 8's array is the bias vector with a unit axis put in front. -/
theorem V_main_v50 (c : Dev nD) : (Gen.V m c main_v50 : S1x10.Idx → EReal) = shapeCast S1x10 (m ((c.tc : Thread nD τ).loc main_arg10)) Gen.shapeCasts_S10_S1x10 := by
  have h := pre_main_arg10 m c
  show Gen.V0 m c (Proc.devRef .tc main_v50) = _
  rw [V0_split]
  generalize StableHlo.after preOps (fun b => m (c, b)) = V3 at h ⊢
  after_results
  rw [h]
  rfl

/-- The earlier host operations leave the bias vector main_arg12 as launched. -/
theorem pre_main_arg12 (c : Dev nD) :
    StableHlo.after preOps (fun b => m (c, b)) (Proc.devRef .tc main_arg12) = (m ((c.tc : Thread nD τ).loc main_arg12)) := by
  have h := Gen.V_main_arg12 m c
  change Gen.V0 m c (Proc.devRef .tc main_arg12) = _ at h
  rw [V0_split] at h
  refine Eq.trans ?_ h
  generalize StableHlo.after preOps (fun b => m (c, b)) = V3
  symm
  after_results

/-- The one-row matrix the region finds in window 10's array is the bias vector with a unit axis put in front. -/
theorem V_main_v51 (c : Dev nD) : (Gen.V m c main_v51 : S1x1.Idx → EReal) = shapeCast S1x1 (m ((c.tc : Thread nD τ).loc main_arg12)) Gen.shapeCasts_S1_S1x1 := by
  have h := pre_main_arg12 m c
  show Gen.V0 m c (Proc.devRef .tc main_v51) = _
  rw [V0_split]
  generalize StableHlo.after preOps (fun b => m (c, b)) = V3 at h ⊢
  after_results
  rw [h]
  rfl

/-- Window 2's block, at every point, read at column q, is entry q of the bias vector as launched. -/
theorem blk2 (c : Dev nD) (t : Fin cfg0.N) (q : Fin 30) :
    (Gen.iblk m c 2 t : Vec Ideal S1x30 .f32) (ix2 (0 : Fin 1) q) = (m ((c.tc : Thread nD τ).loc main_arg4)) (ix1 q) := by
  obtain ⟨-, ⟨e0, e1⟩, -⟩ := idx_whole t
  unfold Gen.iblk
  rw [View.read_apply]
  show Gen.V m c main_v47 (((cfg0.win 2).blk t).view.emb (ix2 (0 : Fin 1) q)) = _
  rw [V_main_v47]
  refine (congrArg _ (?_ : ((cfg0.win 2).blk t).view.emb (ix2 (0 : Fin 1) q) = ix2 (0 : Fin 1) q)).trans (shapeCast_a_1a_apply _ _ 0 q)
  funext a; apply Fin.ext
  match a with
  | ⟨0, _⟩ => show win0_2.index t (0 : Fin 2) * 1 + 1 * 0 = 0; omega
  | ⟨1, _⟩ => show win0_2.index t (1 : Fin 2) * 30 + 1 * q.val = q.val; omega

/-- Window 4's block, at every point, read at column q, is entry q of the bias vector as launched. -/
theorem blk4 (c : Dev nD) (t : Fin cfg0.N) (q : Fin 10) :
    (Gen.iblk m c 4 t : Vec Ideal S1x10 .f32) (ix2 (0 : Fin 1) q) = (m ((c.tc : Thread nD τ).loc main_arg6)) (ix1 q) := by
  obtain ⟨-, -, -, ⟨e0, e1⟩, -⟩ := idx_whole t
  unfold Gen.iblk
  rw [View.read_apply]
  show Gen.V m c main_v48 (((cfg0.win 4).blk t).view.emb (ix2 (0 : Fin 1) q)) = _
  rw [V_main_v48]
  refine (congrArg _ (?_ : ((cfg0.win 4).blk t).view.emb (ix2 (0 : Fin 1) q) = ix2 (0 : Fin 1) q)).trans (shapeCast_a_1a_apply _ _ 0 q)
  funext a; apply Fin.ext
  match a with
  | ⟨0, _⟩ => show win0_4.index t (0 : Fin 2) * 1 + 1 * 0 = 0; omega
  | ⟨1, _⟩ => show win0_4.index t (1 : Fin 2) * 10 + 1 * q.val = q.val; omega

/-- Window 6's block, at every point, read at column q, is entry q of the bias vector as launched. -/
theorem blk6 (c : Dev nD) (t : Fin cfg0.N) (q : Fin 10) :
    (Gen.iblk m c 6 t : Vec Ideal S1x10 .f32) (ix2 (0 : Fin 1) q) = (m ((c.tc : Thread nD τ).loc main_arg8)) (ix1 q) := by
  obtain ⟨-, -, -, -, -, ⟨e0, e1⟩, -⟩ := idx_whole t
  unfold Gen.iblk
  rw [View.read_apply]
  show Gen.V m c main_v49 (((cfg0.win 6).blk t).view.emb (ix2 (0 : Fin 1) q)) = _
  rw [V_main_v49]
  refine (congrArg _ (?_ : ((cfg0.win 6).blk t).view.emb (ix2 (0 : Fin 1) q) = ix2 (0 : Fin 1) q)).trans (shapeCast_a_1a_apply _ _ 0 q)
  funext a; apply Fin.ext
  match a with
  | ⟨0, _⟩ => show win0_6.index t (0 : Fin 2) * 1 + 1 * 0 = 0; omega
  | ⟨1, _⟩ => show win0_6.index t (1 : Fin 2) * 10 + 1 * q.val = q.val; omega

/-- Window 8's block, at every point, read at column q, is entry q of the bias vector as launched. -/
theorem blk8 (c : Dev nD) (t : Fin cfg0.N) (q : Fin 10) :
    (Gen.iblk m c 8 t : Vec Ideal S1x10 .f32) (ix2 (0 : Fin 1) q) = (m ((c.tc : Thread nD τ).loc main_arg10)) (ix1 q) := by
  obtain ⟨-, -, -, -, -, -, -, ⟨e0, e1⟩, -⟩ := idx_whole t
  unfold Gen.iblk
  rw [View.read_apply]
  show Gen.V m c main_v50 (((cfg0.win 8).blk t).view.emb (ix2 (0 : Fin 1) q)) = _
  rw [V_main_v50]
  refine (congrArg _ (?_ : ((cfg0.win 8).blk t).view.emb (ix2 (0 : Fin 1) q) = ix2 (0 : Fin 1) q)).trans (shapeCast_a_1a_apply _ _ 0 q)
  funext a; apply Fin.ext
  match a with
  | ⟨0, _⟩ => show win0_8.index t (0 : Fin 2) * 1 + 1 * 0 = 0; omega
  | ⟨1, _⟩ => show win0_8.index t (1 : Fin 2) * 10 + 1 * q.val = q.val; omega

/-- Window 10's block, at every point, read at column q, is entry q of the bias vector as launched. -/
theorem blk10 (c : Dev nD) (t : Fin cfg0.N) (q : Fin 1) :
    (Gen.iblk m c 10 t : Vec Ideal S1x1 .f32) (ix2 (0 : Fin 1) q) = (m ((c.tc : Thread nD τ).loc main_arg12)) (ix1 q) := by
  obtain ⟨-, -, -, -, -, -, -, -, -, ⟨e0, e1⟩⟩ := idx_whole t
  unfold Gen.iblk
  rw [View.read_apply]
  show Gen.V m c main_v51 (((cfg0.win 10).blk t).view.emb (ix2 (0 : Fin 1) q)) = _
  rw [V_main_v51]
  refine (congrArg _ (?_ : ((cfg0.win 10).blk t).view.emb (ix2 (0 : Fin 1) q) = ix2 (0 : Fin 1) q)).trans (shapeCast_a_1a_apply _ _ 0 q)
  funext a; apply Fin.ext
  match a with
  | ⟨0, _⟩ => show win0_10.index t (0 : Fin 2) * 1 + 1 * 0 = 0; omega
  | ⟨1, _⟩ => show win0_10.index t (1 : Fin 2) * 1 + 1 * q.val = q.val; omega

/-- The node whose row is row p of point t's block. -/
def nodeAt (t : Fin cfg0.N) (p : Fin 5000) : Fin 100000 :=
  ⟨5000 * t.val + p.val, by have hN : cfg0.N = 20 := Gen.N_0; have := t.isLt; have := p.isLt; omega⟩

/-- Where window 0's block at point t sits in its array: row p is the array's row 5000·t + p. -/
theorem emb0 (t : Fin cfg0.N) (p : Fin 5000) (k : Fin 30) :
    ((cfg0.win 0).blk t).view.emb (ix2 p k) = ix2 (nodeAt t p) k := by
  obtain ⟨e0, e1, -⟩ := idx_rows t
  funext a; apply Fin.ext
  match a with
  | ⟨0, _⟩ => show win0_0.index t (0 : Fin 2) * 5000 + 1 * p.val = 5000 * t.val + p.val; omega
  | ⟨1, _⟩ => show win0_0.index t (1 : Fin 2) * 30 + 1 * k.val = k.val; omega

/-- A block of window 0 read off any array: row p of point t's block is the array's row 5000·t + p. -/
theorem read0 (t : Fin cfg0.N) (A : S100000x30.Idx → EReal) (p : Fin 5000) (k : Fin 30) :
    (((cfg0.win 0).blk t).view.read (Elt Ideal) A : Vec Ideal S5000x30 .f32) (ix2 p k) = A (ix2 (nodeAt t p) k) := by
  rewrite [View.read_apply]
  exact congrArg A (emb0 t p k)

/-- Window 0's block at point t is rows 5000·t … 5000·t + 4999 of the aggregated features. -/
theorem blk0 (c : Dev nD) (t : Fin cfg0.N) (p : Fin 5000) (k : Fin 30) :
    (Gen.iblk m c 0 t : Vec Ideal S5000x30 .f32) (ix2 p k) = Gen.V m c main_v46 (ix2 (nodeAt t p) k) :=
  read0 t (Gen.V m c main_v46) p k

/-- The result column as one function of the arrays the region finds: entry (n, 0) is node n's dense layers and logistic. -/
def col (X0 : Fin 100000 → Fin 30 → EReal) (x5 : S30x10.Idx → EReal) (x6 : S10.Idx → EReal) (x7 : S10x10.Idx → EReal)
    (x8 : S10.Idx → EReal) (x9 : S10x10.Idx → EReal) (x10 : S10.Idx → EReal) (x11 : S10x1.Idx → EReal) (x12 : S1.Idx → EReal) :
    S100000x1.Idx → EReal :=
  fun i => Gcn.outOf X0 x5 x6 x7 x8 x9 x10 x11 x12 (ix1 (i 0))

/-- A block of rows through the five layers is the whole array through them, read at the block's rows: each layer's
    row p depends on row p of its input alone. -/
theorem tail_of_rows (A : Fin 100000 → Fin 30 → EReal) (σ : Fin 5000 → Fin 100000)
    (B0 : Fin 5000 → Fin 30 → EReal) (W0 W0' : Fin 30 → Fin 30 → EReal) (b0 b0' : Fin 30 → EReal)
    (W1 W1' : Fin 30 → Fin 10 → EReal) (b1 b1' : Fin 10 → EReal)
    (W2 W2' : Fin 10 → Fin 10 → EReal) (b2 b2' : Fin 10 → EReal)
    (W3 W3' : Fin 10 → Fin 10 → EReal) (b3 b3' : Fin 10 → EReal)
    (W4 W4' : Fin 10 → Fin 1 → EReal) (b4 b4' : Fin 1 → EReal)
    (h0 : B0 = fun r => A (σ r)) (hW0 : W0 = W0') (hb0 : b0 = b0') (hW1 : W1 = W1') (hb1 : b1 = b1')
    (hW2 : W2 = W2') (hb2 : b2 = b2') (hW3 : W3 = W3') (hb3 : b3 = b3') (hW4 : W4 = W4') (hb4 : b4 = b4')
    (p : Fin 5000) :
    Ideal.logistic (Spec.head (Spec.layer (Spec.layer (Spec.layer (Spec.layer B0 W0 b0) W1 b1) W2 b2) W3 b3) W4 b4 p 0)
      = Gcn.tail (Spec.layer A W0' b0') W1' b1' W2' b2' W3' b3' W4' b4' (σ p) := by
  subst h0 hW0 hb0 hW1 hb1 hW2 hb2 hW3 hb3 hW4 hb4
  rfl

/-- Row p of what point t's body leaves in the output block is node 5000·t + p's entry of the result column. -/
theorem out_at (c : Dev nD) (t : Fin cfg0.N) (p : Fin 5000) :
    Gen.out0_11 (F := Ideal) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (ix2 p (0 : Fin 1))
      = (col (Spec.layer (LayerAt.mat (Gen.V m c main_v46)) (LayerAt.mat (m ((c.tc : Thread nD τ).loc main_arg3))) (LayerArray.vec (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12))) (ix2 (nodeAt t p) (0 : Fin 1)) := by
  refine (Pay.out_apply (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) p).trans ?_
  exact tail_of_rows (LayerAt.mat (Gen.V m c main_v46)) (nodeAt t) _ _ _ _ _ _ _ _ _ _ _ _ _ _ _ _ _ _ _ _ _
    (funext fun r => funext fun k => blk0 m c t r k)
    (funext fun a => funext fun b => blk1 m c t (ix2 a b)) (funext fun q => blk2 m c t q)
    (funext fun a => funext fun b => blk3 m c t (ix2 a b)) (funext fun q => blk4 m c t q)
    (funext fun a => funext fun b => blk5 m c t (ix2 a b)) (funext fun q => blk6 m c t q)
    (funext fun a => funext fun b => blk7 m c t (ix2 a b)) (funext fun q => blk8 m c t q)
    (funext fun a => funext fun b => blk9 m c t (ix2 a b)) (funext fun q => blk10 m c t q) p

/-- Where the output window's block at point t sits in the result column: row p is the column's row 5000·t + p. -/
theorem emb11 (t : Fin cfg0.N) (p : Fin 5000) :
    ((cfg0.win 11).blk t).view.emb (ix2 p (0 : Fin 1)) = ix2 (nodeAt t p) (0 : Fin 1) := by
  obtain ⟨-, -, e2, e3⟩ := idx_rows t
  funext a; apply Fin.ext
  match a with
  | ⟨0, _⟩ => show win0_11.index t (0 : Fin 2) * 5000 + 1 * p.val = 5000 * t.val + p.val; omega
  | ⟨1, _⟩ => show win0_11.index t (1 : Fin 2) * 1 + 1 * 0 = 0; omega

/-- A block of the output window read off any column: row p of point t's block is the column's row 5000·t + p. -/
theorem read11 (t : Fin cfg0.N) (G : S100000x1.Idx → EReal) (p : Fin 5000) :
    (((cfg0.win 11).blk t).view.read (Elt Ideal) G : Vec Ideal S5000x1 .f32) (ix2 p (0 : Fin 1)) = G (ix2 (nodeAt t p) (0 : Fin 1)) := by
  rewrite [View.read_apply]
  exact congrArg G (emb11 t p)

/-- What point t writes back is block t of the result column. -/
theorem flushed_eq (c : Dev nD) (t : Fin cfg0.N) :
    (Gen.dats m 0 c).flushed 11 t = ((cfg0.win 11).blk t).view.read (Elt Ideal)
      (col (Spec.layer (LayerAt.mat (Gen.V m c main_v46)) (LayerAt.mat (m ((c.tc : Thread nD τ).loc main_arg3))) (LayerArray.vec (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12))) := by
  show (cfg0.win 11).cut (grid0.coords t) ((Gen.dats m 0 c).after 11 t) = _
  rewrite [Gen.after0_11]
  refine funext fun (j : S5000x1.Idx) => ?_
  obtain ⟨p, q, rfl⟩ : ∃ (p : Fin 5000) (q : Fin 1), j = ix2 p q := ⟨j 0, j 1, eq_ix2 j⟩
  obtain rfl : q = 0 := Subsingleton.elim _ _
  exact (out_at m c t p).trans (read11 t _ p).symm

/-- An index of the result column is in point t's block iff each coordinate is in the block's range on its axis. -/
theorem mem_blk (t : Fin cfg0.N) (i : S100000x1.Idx) :
    i ∈ ((cfg0.win 11).blk t).view.set ↔ ∀ a : Fin 2, win0_11.index t a * S5000x1.size a ≤ (i a).val ∧ (i a).val < win0_11.index t a * S5000x1.size a + S5000x1.size a := by
  show i ∈ ((View.whole main_v52).slice (win0_11.rect t)).set ↔ _
  rw [View.set_slice_whole, Rect.mem_set_unit]
  exact Iff.rfl

/-- The blocks tile the column: row r is in the block of point r / 5000. -/
theorem cover (i : S100000x1.Idx) :
    ∃ t : Fin cfg0.N, (cfg0.win 11).flush t = true ∧ i ∈ ((cfg0.win 11).blk t).view.set := by
  have hN : cfg0.N = 20 := Gen.N_0
  have hi0 : (i 0).val < 100000 := (i 0).isLt
  have hi1 : (i 1).val < 1 := (i 1).isLt
  obtain ⟨t, ht⟩ : ∃ t : Fin cfg0.N, t.val = (i 0).val / 5000 := ⟨⟨(i 0).val / 5000, by omega⟩, rfl⟩
  obtain ⟨-, -, e2, e3⟩ := idx_rows t
  refine ⟨t, Gen.flush0_11 t, ?_⟩
  rw [mem_blk]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 1 ≤ (i 1).val ∧ (i 1).val < win0_11.index t (1 : Fin 2) * 1 + 1; omega

/-- So after the region the result column is that function everywhere. -/
theorem final (c : Dev nD) : (Gen.dats m 0 c).arrAt 11 cfg0.N
      = (col (Spec.layer (LayerAt.mat (Gen.V m c main_v46)) (LayerAt.mat (m ((c.tc : Thread nD τ).loc main_arg3))) (LayerArray.vec (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12))) :=
  (Gen.dats m 0 c).arrAt_eq_of_cover 11 _ (fun t _ => flushed_eq m c t) cover

/-- A column [a, 1] cast to the vector [a] reads, at i, the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The line after the region drops the column's unit axis: the result array's entry n is node n's value. -/
theorem result (c : Dev nD) :
    Pipeline.afterTail₀ cfgs (Gen.dats m) 0 (Gen.V0 m) [Gen.hostOps1] c main_v53
      = Gcn.outOf (Spec.layer (LayerAt.mat (Gen.V m c main_v46)) (LayerAt.mat (m ((c.tc : Thread nD τ).loc main_arg3))) (LayerArray.vec (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after Gen.hostOps1 _ (Proc.devRef .tc main_v53) = _
  after_results
  have hw : Pipeline.withArrays (cfgs 0).spec c (Gen.V0 m c) (fun w => (Gen.dats m 0 c).arrAt w (cfgs 0).N) (Proc.devRef .tc main_v52)
      = (col (Spec.layer (LayerAt.mat (Gen.V m c main_v46)) (LayerAt.mat (m ((c.tc : Thread nD τ).loc main_arg3))) (LayerArray.vec (m ((c.tc : Thread nD τ).loc main_arg4))))
        (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12))) :=
    (Pipeline.withArrays_arr spec0 Gen.launch0.win.arr_inj c _ _ 11).trans (final m c)
  rewrite [hw]
  funext i
  obtain ⟨n, rfl⟩ : ∃ n : Fin 100000, i = ix1 n := ⟨i 0, eq_ix1 i⟩
  exact shapeCast_a1_a_apply _ _ n

end Blocks

/-- Every weakly fair execution of the kernel program terminates with the result array at the dense layers of the
    aggregated features as the region finds them, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread Cert.KernelIdeal.nD Cert.KernelIdeal.τ).loc Cert.KernelIdeal.main_v53)
        = Gcn.outOf (Spec.layer (LayerAt.mat (Gen.V m c main_v46)) (LayerAt.mat (m ((c.tc : Thread Cert.KernelIdeal.nD Cert.KernelIdeal.τ).loc Cert.KernelIdeal.main_arg3))) (LayerArray.vec (m ((c.tc : Thread Cert.KernelIdeal.nD Cert.KernelIdeal.τ).loc Cert.KernelIdeal.main_arg4))))
            (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
            (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (defs (F := Ideal)) _ _).mono (fun r h c => ⟨((h c).2 main_v53 (Pipeline.mem_restRefs_of main_v53 (by decide) (by decide))).trans (result m c),
      (((h c).2 main_arg0 (Pipeline.mem_restRefs_of main_arg0 (by decide) (by decide))).trans (Gen.W_main_arg0 m (Gen.dats m) c)),
      (((h c).2 main_arg1 (Pipeline.mem_restRefs_of main_arg1 (by decide) (by decide))).trans (Gen.W_main_arg1 m (Gen.dats m) c)),
      (((h c).2 main_arg2 (Pipeline.mem_restRefs_of main_arg2 (by decide) (by decide))).trans (Gen.W_main_arg2 m (Gen.dats m) c)),
      ((h c).1 1).trans (((Gen.dats m 0 c).arrAt_in 1 rfl _).trans ((Gen.A_eq m c 1).trans (Gen.V_main_arg3 m c))),
      (((h c).2 main_arg4 (Pipeline.mem_restRefs_of main_arg4 (by decide) (by decide))).trans (Gen.W_main_arg4 m (Gen.dats m) c)),
      ((h c).1 3).trans (((Gen.dats m 0 c).arrAt_in 3 rfl _).trans ((Gen.A_eq m c 3).trans (Gen.V_main_arg5 m c))),
      (((h c).2 main_arg6 (Pipeline.mem_restRefs_of main_arg6 (by decide) (by decide))).trans (Gen.W_main_arg6 m (Gen.dats m) c)),
      ((h c).1 5).trans (((Gen.dats m 0 c).arrAt_in 5 rfl _).trans ((Gen.A_eq m c 5).trans (Gen.V_main_arg7 m c))),
      (((h c).2 main_arg8 (Pipeline.mem_restRefs_of main_arg8 (by decide) (by decide))).trans (Gen.W_main_arg8 m (Gen.dats m) c)),
      ((h c).1 7).trans (((Gen.dats m 0 c).arrAt_in 7 rfl _).trans ((Gen.A_eq m c 7).trans (Gen.V_main_arg9 m c))),
      (((h c).2 main_arg10 (Pipeline.mem_restRefs_of main_arg10 (by decide) (by decide))).trans (Gen.W_main_arg10 m (Gen.dats m) c)),
      ((h c).1 9).trans (((Gen.dats m 0 c).arrAt_in 9 rfl _).trans ((Gen.A_eq m c 9).trans (Gen.V_main_arg11 m c))),
      (((h c).2 main_arg12 (Pipeline.mem_restRefs_of main_arg12 (by decide) (by decide))).trans (Gen.W_main_arg12 m (Gen.dats m) c))⟩)
    (Gen.run_main m ρ)

end Cert.KernelIdeal.KRun

end
-- ==== Proof.LibSegmentSum.lean ====
/-
  Sums by segment. At the extended reals the accumulating scatter is an exact sum: every operand entry plus the sum
  of the update entries landing on it. This file reads a ROW scatter (operand of N rows and C columns, one scatter
  index per update row, update row e added to the operand row its index names) at an entry as the sum, over the
  update rows whose index is that row, of their entries in that column; shows that summing projected rows by
  segment is projecting the rows summed by segment (the entries summed being non-negative, the projection's
  weights arbitrary extended reals); and shows that dividing by the larger of a count of ones and 1 is multiplying
  by a non-negative real. Any extents, any index width.
-/
import Idealize.ShloMosaic.PureOps.Ideal
import Idealize.ShloMosaic.PureOps.Ideal.Laws
import Idealize.ShloMosaic.PureOps.ShapeOps
import Idealize.ShloMosaic.Lib.ValueIdx
import proofs.«101079_j62629213110804_2_alg».proof.Proof.LibRowGather

noncomputable section

namespace Cert.Lib.SegmentSum

open Idealize.ShloMosaic Idealize.ShloMosaic.ValueIdx
open scoped BigOperators

/-- An update index lands on operand index i exactly when, on every operand axis, its start plus its window
    coordinate is i's coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro heq a
      have h' := Option.some.inj heq
      rw [← h']
      exact (Int.toNat_of_nonneg (h a).1).symm
    · intro hall
      congr 1
      funext a
      refine Fin.ext ?_
      show (d.start j idx a + (d.window j a : Int)).toNat = (i a).val
      rw [hall a]
      exact Int.toNat_natCast _
  · constructor
    · intro heq; cases heq
    · intro hall
      exfalso
      apply h
      intro a
      rw [hall a]
      exact ⟨Int.natCast_nonneg _, Int.ofNat_lt.mpr (i a).isLt⟩

/-- The dimension numbers of a row scatter: operand [N, C], scatter indices [E, 1], updates [E, C]; update row e is
    added to the operand row its one index component names, column by column. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows

variable {N C E w : Nat} (wf : ScatterDims.WF ⟨2, ![N, C]⟩ ⟨2, ![E, 1]⟩ ⟨2, ![E, C]⟩ [1] [0] [0] 1)

/-- On the row axis the window of update (e, q') starts at the scatter index of update row e, read signed. -/
theorem start_row (idx : IVec ⟨2, ![E, 1]⟩ w) (e : Fin E) (q' : Fin C) :
    (rowDims N C E wf).start (ix2 e q') idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e q') ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, every window starts at 0. -/
theorem start_col (idx : IVec ⟨2, ![E, 1]⟩ w) (j : (⟨2, ![E, C]⟩ : Shape).Idx) :
    (rowDims N C E wf).start j idx 1 = 0 := by
  unfold ScatterDims.start
  rw [dif_neg (show (1 : Fin 2) ∉ (rowDims N C E wf).scatterDimsToOperandDims from
    fun h => (show ¬ ((1 : Fin 2) = 0) by decide) (List.mem_singleton.mp h))]

/-- The row axis is an inserted axis: the window coordinate there is 0. -/
theorem window_row (j : (⟨2, ![E, C]⟩ : Shape).Idx) : (rowDims N C E wf).window j 0 = 0 := by
  unfold ScatterDims.window
  rw [dif_neg (show (0 : Fin 2) ∉ (rowDims N C E wf).sKept from
    fun h => of_decide_eq_true (List.mem_filter.mp h).2 (List.mem_singleton.mpr rfl))]

/-- On the column axis the window coordinate of update (e, q') is q'. -/
theorem window_col (e : Fin E) (q' : Fin C) : (rowDims N C E wf).window (ix2 e q') 1 = q'.val := by
  unfold ScatterDims.window
  rw [dif_pos (show (1 : Fin 2) ∈ (rowDims N C E wf).sKept from
    List.mem_filter.mpr ⟨List.mem_finRange _, decide_eq_true (fun h => (show ¬ ((1 : Fin 2) = 0) by decide) (List.mem_singleton.mp h))⟩)]
  rfl

/-- Update (e, q') lands on operand entry (n, q) exactly when the scatter index of update row e is n and q' = q. -/
theorem lands_iff (idx : IVec ⟨2, ![E, 1]⟩ w) (e : Fin E) (q' : Fin C) (n : Fin N) (q : Fin C) :
    (rowDims N C E wf).resultIdx? (ix2 e q') idx = some (ix2 n q)
      ↔ ((idx (ix2 e (0 : Fin 1))).toInt = (n.val : Int) ∧ q' = q) := by
  refine (resultIdx?_eq_some_iff _ _ _ _).trans (Fin.forall_fin_two.trans ?_)
  show ((rowDims N C E wf).start (ix2 e q') idx 0 + ((rowDims N C E wf).window (ix2 e q') 0 : Int) = (n.val : Int)
      ∧ (rowDims N C E wf).start (ix2 e q') idx 1 + ((rowDims N C E wf).window (ix2 e q') 1 : Int) = (q.val : Int)) ↔ _
  rw [start_row, start_col, window_row, window_col]
  constructor
  · rintro ⟨h0, h1⟩
    exact ⟨by simpa using h0, Fin.ext (by simpa using h1)⟩
  · rintro ⟨h0, rfl⟩
    exact ⟨by simpa using h0, by simp⟩

/-- The row scatter at (n, q): the operand's entry plus the sum, over the update rows whose scatter index (read
    signed) is n, of their entries in column q. Update rows whose index names no row of the operand contribute
    nowhere. -/
theorem scatterAdd_rows_apply (x : (⟨2, ![N, C]⟩ : Shape).Idx → EReal) (idx : IVec ⟨2, ![E, 1]⟩ w)
    (u : (⟨2, ![E, C]⟩ : Shape).Idx → EReal) (n : Fin N) (q : Fin C) :
    Host.scatterAdd (F := Ideal) (φ := .f32) (rowDims N C E wf) x idx u (ix2 n q)
      = x (ix2 n q) + ∑ e ∈ Finset.univ.filter (fun e : Fin E => (idx (ix2 e (0 : Fin 1))).toInt = (n.val : Int)),
          u (ix2 e q) := by
  show x (ix2 n q) + ∑ j ∈ Finset.univ.filter (fun j => (rowDims N C E wf).resultIdx? j idx = some (ix2 n q)), u j = _
  congr 1
  rw [Finset.sum_filter, sum_idx2, Finset.sum_filter]
  refine Finset.sum_congr rfl (fun e _ => ?_)
  simp only [lands_iff]
  by_cases hc : (idx (ix2 e (0 : Fin 1))).toInt = (n.val : Int)
  · simp [hc]
  · simp [hc]

end Rows

/-- A sum of non-negative extended reals times any extended real is the sum of the products: multiplication
    distributes from the right over sums of non-negative terms, whatever the factor. -/
theorem sum_mul_of_nonneg {ι : Type*} (s : Finset ι) (a : ι → EReal) (ha : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih (fun j hj => ha j (Finset.mem_insert_of_mem hj))]

/-- Summing projected rows by segment is projecting the rows summed by segment. With H non-negative, P = H · W
    entrywise as sums over the inner axis (W any extended reals), rows gathered at src and scattered into zeros at
    dst: at node n and column q both sides are the sum over the edges e with dst e = n and over the inner index k of
    H[row(src e), k] · W[k, q]; the two finite sums are exchanged and W[k, q] is taken out of the sum over the
    edges, whose terms are non-negative. -/
theorem segment_project {N K Q E w : Nat} (hN : 0 < N)
    (wfK : ScatterDims.WF ⟨2, ![N, K]⟩ ⟨2, ![E, 1]⟩ ⟨2, ![E, K]⟩ [1] [0] [0] 1)
    (wfQ : ScatterDims.WF ⟨2, ![N, Q]⟩ ⟨2, ![E, 1]⟩ ⟨2, ![E, Q]⟩ [1] [0] [0] 1)
    (wgK : GatherDims.WF ⟨2, ![N, K]⟩ ⟨2, ![E, 1]⟩ ⟨2, ![E, K]⟩ [1] [0] [] [0] [] 1 ![1, K])
    (wgQ : GatherDims.WF ⟨2, ![N, Q]⟩ ⟨2, ![E, 1]⟩ ⟨2, ![E, Q]⟩ [1] [0] [] [0] [] 1 ![1, Q])
    (H : (⟨2, ![N, K]⟩ : Shape).Idx → EReal) (hH : ∀ i, 0 ≤ H i) (W : (⟨2, ![K, Q]⟩ : Shape).Idx → EReal)
    (P : (⟨2, ![N, Q]⟩ : Shape).Idx → EReal)
    (hP : ∀ (m : Fin N) (q : Fin Q), P (ix2 m q) = ∑ k : Fin K, H (ix2 m k) * W (ix2 k q))
    (ZK : (⟨2, ![N, K]⟩ : Shape).Idx → EReal) (hZK : ∀ i, ZK i = 0)
    (ZQ : (⟨2, ![N, Q]⟩ : Shape).Idx → EReal) (hZQ : ∀ i, ZQ i = 0)
    (src dst : IVec ⟨2, ![E, 1]⟩ w) (n : Fin N) (q : Fin Q) :
    Host.scatterAdd (F := Ideal) (φ := .f32) (rowDims N Q E wfQ) ZQ dst
        (Host.gather (Cert.Bridge.RowGather.rowDims N Q E wgQ) P src) (ix2 n q)
      = ∑ k : Fin K, Host.scatterAdd (F := Ideal) (φ := .f32) (rowDims N K E wfK) ZK dst
          (Host.gather (Cert.Bridge.RowGather.rowDims N K E wgK) H src) (ix2 n k) * W (ix2 k q) := by
  rw [scatterAdd_rows_apply wfQ, hZQ, zero_add]
  refine (Finset.sum_congr rfl (fun e _ =>
    (Cert.Bridge.RowGather.gather_rows_apply hN wgQ P src e q).trans (hP _ _))).trans ?_
  rw [Finset.sum_comm]
  refine Finset.sum_congr rfl (fun k _ => ?_)
  have hk : Host.scatterAdd (F := Ideal) (φ := .f32) (rowDims N K E wfK) ZK dst
        (Host.gather (Cert.Bridge.RowGather.rowDims N K E wgK) H src) (ix2 n k)
      = ∑ e ∈ Finset.univ.filter (fun e : Fin E => (dst (ix2 e (0 : Fin 1))).toInt = (n.val : Int)),
          H (ix2 (Cert.Bridge.RowGather.rowOf hN (src (ix2 e (0 : Fin 1)))) k) := by
    rw [scatterAdd_rows_apply wfK, hZK, zero_add]
    exact Finset.sum_congr rfl (fun e _ => Cert.Bridge.RowGather.gather_rows_apply hN wgK H src e k)
  rw [hk, sum_mul_of_nonneg _ _ (fun e _ => hH _)]

/-- A sum of ones over a finite set is a natural number, so a scatter of ones into zeros holds a count at every
    index; the larger of a count and 1 is a real at least 1, and dividing by it is multiplying by its reciprocal,
    a non-negative real. -/
theorem degree_reciprocal {s si u : Shape} {w : Nat} (d : ScatterDims s si u) (Z : s.Idx → EReal) (hZ : ∀ i, Z i = 0)
    (idx : IVec si w) (O : u.Idx → EReal) (hO : ∀ j, O j = 1) (i : s.Idx) :
    ∃ c : ℝ, 0 ≤ c ∧ Ideal.div 1 (max (Host.scatterAdd (F := Ideal) (φ := .f32) d Z idx O i) 1) = (c : EReal)
      ∧ ∀ a : EReal, Ideal.div a (max (Host.scatterAdd (F := Ideal) (φ := .f32) d Z idx O i) 1) = a * (c : EReal) := by
  have hval : Host.scatterAdd (F := Ideal) (φ := .f32) d Z idx O i
      = (((Finset.univ.filter (fun j => d.resultIdx? j idx = some i)).card : ℝ) : EReal) := by
    show Z i + ∑ j ∈ Finset.univ.filter (fun j => d.resultIdx? j idx = some i), O j = _
    rw [hZ i, zero_add, Finset.sum_congr rfl (fun j _ => hO j)]
    simp
  rw [hval]
  set t : ℝ := ((Finset.univ.filter (fun j => d.resultIdx? j idx = some i)).card : ℝ) with ht
  have hmax : max (t : EReal) 1 = ((max t 1 : ℝ) : EReal) := by
    exact (EReal.coe_strictMono.monotone.map_max (a := t) (b := 1)).symm
  rw [hmax]
  have hpos : (0 : ℝ) < max t 1 := lt_of_lt_of_le one_pos (le_max_right _ _)
  refine ⟨1 / max t 1, by positivity, ?_, ?_⟩
  · rw [Ideal.div_coe hpos.ne', one_mul]
  · intro a
    exact Ideal.div_coe hpos.ne' a

end Cert.Lib.SegmentSum

end
-- ==== Proof.LibVecIndex.lean ====
/-
  A vector gather and a vector accumulation read at an index. For an operand of N entries and one start index per
  result entry (start indices of shape [E, 1]): the gather that collapses the one axis (what x[idx] lowers to for a
  one-dimensional x) reads, at result entry e, the operand's entry at the start index of e read as a signed integer
  and clamped into [0, N - 1]; the accumulating scatter of E updates (what x.at[idx].add(u) and a segment sum lower to)
  holds, at operand entry n, the operand's entry plus the sum of the updates whose index read signed is n, on the
  extended reals. Any extents, any index width.
-/
import Idealize.ShloMosaic.PureOps.Ideal
import Idealize.ShloMosaic.PureOps.Ideal.Laws
import Idealize.ShloMosaic.PureOps.ShapeOps
import Idealize.ShloMosaic.Lib.ValueIdx
import proofs.«101079_j62629213110804_2_alg».proof.Proof.LibRowGather
import proofs.«101079_j62629213110804_2_alg».proof.Proof.LibSegmentSum

noncomputable section

namespace Cert.Lib.VecIndex

open Idealize.ShloMosaic Idealize.ShloMosaic.ValueIdx Cert.Bridge
open scoped BigOperators

variable {α : Type}

/-- The dimension numbers of a vector gather: operand [N], start indices [E, 1], result [E]. -/
abbrev gatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at e is the operand at the clamped start index of e. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims N E wf) x idx (ix1 e) = x (ix1 (RowGather.rowOf hN (idx (ix2 e (0 : Fin 1))))) := by
  -- the one operand coordinate: the clamped start; no batching coordinate, no offset on a collapsed axis
  have h0 : ((gatherDims N E wf).operandIdx (ix1 e) idx 0).val = min (idx (ix2 e (0 : Fin 1))).toInt.toNat (N - 1) := by
    show (gatherDims N E wf).start (ix1 e) idx 0 + (gatherDims N E wf).batchCoord (ix1 e) 0
        + (gatherDims N E wf).offCoord (ix1 e) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (gatherDims N E wf).startIndexMap from List.mem_singleton.mpr rfl)]
    have hsi : (gatherDims N E wf).siIdx (ix1 e) ⟨List.idxOf (0 : Fin 1) (gatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  obtain rfl : a = 0 := Subsingleton.elim _ _
  exact Fin.ext h0

/-- The dimension numbers of a vector accumulation: operand [N], scatter indices [E, 1], updates [E]. -/
abbrev scatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An index of a vector is its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N E w : Nat} (wf : ScatterDims.WF ⟨1, ![N]⟩ ⟨2, ![E, 1]⟩ ⟨1, ![E]⟩ [] [0] [0] 1)

/-- The window of update e starts at the scatter index of e, read signed. -/
theorem start_vec (idx : IVec ⟨2, ![E, 1]⟩ w) (e : Fin E) :
    (scatterDims N E wf).start (ix1 e) idx 0 = (idx (ix2 e (0 : Fin 1))).toInt := by
  unfold ScatterDims.start
  rw [dif_pos (show (0 : Fin 1) ∈ (scatterDims N E wf).scatterDimsToOperandDims from List.mem_singleton.mpr rfl)]
  have hsi : (scatterDims N E wf).siIdx (ix1 e) ⟨List.idxOf (0 : Fin 1) (scatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem window_vec (j : (⟨1, ![E]⟩ : Shape).Idx) : (scatterDims N E wf).window j 0 = 0 := by
  unfold ScatterDims.window
  rw [dif_neg (show (0 : Fin 1) ∉ (scatterDims N E wf).sKept from
    fun h => of_decide_eq_true (List.mem_filter.mp h).2 (List.mem_singleton.mpr rfl))]

/-- Update e lands on operand entry n exactly when its scatter index, read signed, is n. -/
theorem lands_iff_vec (idx : IVec ⟨2, ![E, 1]⟩ w) (e : Fin E) (n : Fin N) :
    (scatterDims N E wf).resultIdx? (ix1 e) idx = some (ix1 n) ↔ (idx (ix2 e (0 : Fin 1))).toInt = (n.val : Int) := by
  refine (Cert.Lib.SegmentSum.resultIdx?_eq_some_iff _ _ _ _).trans ?_
  constructor
  · intro h
    have h0 := h 0
    rw [start_vec, window_vec] at h0
    simp only [Nat.cast_zero, add_zero] at h0
    exact h0
  · intro h a
    obtain rfl : a = 0 := Subsingleton.elim _ _
    rw [start_vec, window_vec]
    simp only [Nat.cast_zero, add_zero]
    exact h

end Vec

/-- The accumulation at n: the operand's entry plus the sum of the updates whose index (read signed) is n. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Host.scatterAdd (F := Ideal) (φ := .f32) (scatterDims N E wf) x idx u (ix1 n)
      = x (ix1 n) + ∑ e ∈ Finset.univ.filter (fun e : Fin E => (idx (ix2 e (0 : Fin 1))).toInt = (n.val : Int)), u (ix1 e) := by
  show x (ix1 n) + ∑ j ∈ Finset.univ.filter (fun j => (scatterDims N E wf).resultIdx? j idx = some (ix1 n)), u j = _
  congr 1
  rw [Finset.sum_filter, sum_idx1, Finset.sum_filter]
  refine Finset.sum_congr rfl (fun e _ => ?_)
  simp only [lands_iff_vec]

end Cert.Lib.VecIndex

end
-- ==== Proof.KAgg.lean ====
/-
  The aggregated features as the region finds them. Before the region the kernel program computes, with host
  operations, each node's degree (the incoming edge weights accumulated into zeros, plus one), its reciprocal square
  root where positive, each edge's symmetric coefficient, the source rows scaled by the coefficients and accumulated at
  the edges' targets, and the node's own row scaled by the squared reciprocal root. Entry (n, k) of that array is the
  specification's aggregated feature.

  The proof has three parts. The arrays the operations compute are named, each as the operation chain that produces it
  from the three argument arrays (the node features, the edge index array, the edge weights). The staged array is shown
  to be the last of them by reading each operation's result off the operations before the region. Then each named array
  is read at an index: a slice and a reshape move coordinates, a broadcast repeats an entry, a gather reads the row its
  index word names, an accumulation adds the updates whose index word is the row; and the readings are put together
  into the specification's terms, sum by sum.
-/
import proofs.«101079_j62629213110804_2_alg».proof.Proof.Gen.KernelIdeal.Frame
import proofs.«101079_j62629213110804_2_alg».proof.Proof.GcnSpec
import proofs.«101079_j62629213110804_2_alg».proof.Proof.LibVecIndex
import proofs.«101079_j62629213110804_2_alg».proof.Proof.LibSegmentSum
import Idealize.ShloMosaic.Lib.StableHlo.Run
import Idealize.ShloMosaic.Lib.Pipeline.Value

noncomputable section

open scoped BigOperators

namespace Cert.KernelIdeal.KAgg

open Idealize.ShloMosaic Idealize.ShloMosaic.TcCoe Idealize.SL.Sem Idealize.ShloMosaic.ValueIdx Cert.KernelIdeal Cert.Bridge

section Arrays

variable (h : FVec Ideal S100000x30 .f32) (ei : IVec S2x3200000 32) (ew : FVec Ideal S3200000 .f32)

/-- The source words of the edges: row 0 of the edge index array, as a vector. -/
def srcIdx : IVec S3200000 32 :=
  shapeCast S3200000 (extractStridedSlice S1x3200000 ![0, 0] ei Gen.slices_S2x3200000_S1x3200000_0_0)
    Gen.shapeCasts_S1x3200000_S3200000

/-- The target words of the edges: row 1 of the edge index array, as a vector. -/
def dstIdx : IVec S3200000 32 :=
  shapeCast S3200000 (extractStridedSlice S1x3200000 ![1, 0] ei Gen.slices_S2x3200000_S1x3200000_1_0)
    Gen.shapeCasts_S1x3200000_S3200000

/-- Negative words wrapped by the node count, entry by entry. -/
def wrapIdx (v : IVec S3200000 32) : IVec S3200000 32 :=
  select (cmpi .slt v (broadcastInDim S3200000 ![] Gen.bcast_S_S3200000 (constantI S_ 32 0#32)))
    (addi v (broadcastInDim S3200000 ![] Gen.bcast_S_S3200000 (constantI S_ 32 100000#32))) v

/-- A vector of words as a one-column index array. -/
def asCol (v : IVec S3200000 32) : IVec S3200000x1 32 :=
  broadcastInDim S3200000x1 ![0] Gen.bcast_S3200000_S3200000x1_0 v

/-- The zero word at every node. -/
def zeroVec : FVec Ideal S100000 .f32 :=
  broadcastInDim S100000 ![] Gen.bcast_S_S100000 (constant (F := Ideal) S_ .f32 0x00000000#32)

/-- The degrees: the incoming weights accumulated into zeros, plus one. -/
def degArr : FVec Ideal S100000 .f32 :=
  addf (Host.scatterAdd (F := Ideal) scatter_S100000_S3200000x1_S3200000_n_0_0_1 zeroVec (asCol (dstIdx ei)) ew)
    (broadcastInDim S100000 ![] Gen.bcast_S_S100000 (constant (F := Ideal) S_ .f32 0x3F800000#32))

/-- The reciprocal square roots of the positive degrees, zero elsewhere. -/
def disArr : FVec Ideal S100000 .f32 :=
  select (cmpf .ogt (degArr ei ew) zeroVec) (Host.rsqrt (F := Ideal) (degArr ei ew))
    (broadcastInDim S100000 ![] Gen.bcast_S_S100000 (constant (F := Ideal) S_ .f32 0x00000000#32))

/-- The edges' symmetric coefficients. -/
def normArr : FVec Ideal S3200000 .f32 :=
  mulf
    (mulf (Host.gather gather_S100000_S3200000x1_S3200000_n_0_n_n_0_1_1 (disArr ei ew) (asCol (wrapIdx (srcIdx ei)))) ew)
    (Host.gather gather_S100000_S3200000x1_S3200000_n_0_n_n_0_1_1 (disArr ei ew) (asCol (wrapIdx (dstIdx ei))))

/-- The source rows scaled by the coefficients. -/
def msgArr : FVec Ideal S3200000x30 .f32 :=
  mulf (Host.gather gather_S100000x30_S3200000x1_S3200000x30_1_0_n_n_0_1_130 h (asCol (wrapIdx (srcIdx ei))))
    (broadcastInDim S3200000x30 ![0, 1] Gen.bcast_S3200000x1_S3200000x30_0_1
      (broadcastInDim S3200000x1 ![0] Gen.bcast_S3200000_S3200000x1_0 (normArr ei ew)))

/-- The scaled rows accumulated at the edges' targets, into zeros. -/
def edgesArr : FVec Ideal S100000x30 .f32 :=
  Host.scatterAdd (F := Ideal) scatter_S100000x30_S3200000x1_S3200000x30_1_0_0_1
    (broadcastInDim S100000x30 ![] Gen.bcast_S_S100000x30 (constant (F := Ideal) S_ .f32 0x00000000#32))
    (asCol (dstIdx ei)) (msgArr h ei ew)

/-- Each node's own row scaled by the squared reciprocal root. -/
def selfArr : FVec Ideal S100000x30 .f32 :=
  mulf h (broadcastInDim S100000x30 ![0, 1] Gen.bcast_S100000x1_S100000x30_0_1
    (broadcastInDim S100000x1 ![0] Gen.bcast_S100000_S100000x1_0 (mulf (disArr ei ew) (disArr ei ew))))

/-- The aggregated features as one array over the three argument arrays. -/
def aggArr : FVec Ideal S100000x30 .f32 := addf (edgesArr h ei ew) (selfArr h ei ew)

end Arrays

/-- The selection as the called function computes it, through its own value buffers (each a transport along an equation
    between equal buffer types, the identity), is the selection of the three arrays. -/
theorem where_eq (g : IVec S100000 1) (r : FVec Ideal S100000 .f32) (z : FVec Ideal S_ .f32) :
    (StableHlo.TRef.of main_v12 : StableHlo.TRef sig ⟨S100000, .f32⟩).toBuf (Val := Elt Ideal)
      (select
        ((StableHlo.TRef.of main_v10 : StableHlo.TRef sig ⟨S100000, .i1⟩).ofBuf (Val := Elt Ideal) g)
        ((StableHlo.TRef.of main_v11 : StableHlo.TRef sig ⟨S100000, .f32⟩).ofBuf (Val := Elt Ideal) r)
        ((StableHlo.TRef.of main_call0_v1 : StableHlo.TRef sig ⟨S100000, .f32⟩).ofBuf (Val := Elt Ideal)
          ((StableHlo.TRef.of main_call0_v1 : StableHlo.TRef sig ⟨S100000, .f32⟩).toBuf (Val := Elt Ideal)
            (broadcastInDim S100000 ![] Gen.bcast_S_S100000
              ((StableHlo.TRef.of main_call0_v0 : StableHlo.TRef sig ⟨S_, .f32⟩).ofBuf (Val := Elt Ideal)
                ((StableHlo.TRef.of main_call0_v0 : StableHlo.TRef sig ⟨S_, .f32⟩).toBuf (Val := Elt Ideal)
                  (id ((StableHlo.TRef.of main_cst_2 : StableHlo.TRef sig ⟨S_, .f32⟩).ofBuf (Val := Elt Ideal) z))))))))
      = select g r (broadcastInDim S100000 ![] Gen.bcast_S_S100000 z) := rfl

set_option maxRecDepth 16384 in
/-- The array the first window stages, as the composed array of the three argument arrays: each host operation's
    result read off the operations before the region, in order. -/
theorem V_eq (m : (ℓ : Loc nD τ sig) → Buf (Elt Ideal) ℓ) (c : Dev nD) :
    (Gen.V m c main_v46 : S100000x30.Idx → EReal)
      = aggArr (m ((c.tc : Thread Cert.KernelIdeal.nD Cert.KernelIdeal.τ).loc main_arg0))
          (m ((c.tc : Thread Cert.KernelIdeal.nD Cert.KernelIdeal.τ).loc main_arg1))
          (m ((c.tc : Thread Cert.KernelIdeal.nD Cert.KernelIdeal.τ).loc main_arg2)) := by
  dsimp only [Gen.V, Gen.V0]
  simp only [Gen.hostOps0, Gen.hostOps0_1, Gen.hostOps0_2, List.flatten_cons, List.flatten_nil, List.append_nil, List.cons_append, List.nil_append]
  after_results_simp
  rw [where_eq]
  rfl

section Reads

variable (h : FVec Ideal S100000x30 .f32) (ei : IVec S2x3200000 32) (ew : FVec Ideal S3200000 .f32)

/-- Entry e of the source words is entry (0, e) of the edge index array. -/
theorem srcIdx_apply (e : Fin 3200000) : srcIdx ei (ix1 e) = Gcn.erow ei e := by
  unfold srcIdx
  refine (shapeCast_apply _ Gen.shapeCasts_S1x3200000_S3200000 (ix1 e) (ix2 (0 : Fin 1) e) ?_).trans ?_
  · rw [Shape.rowMajor_val_two, Shape.rowMajor_val_one]
    show (0 : Nat) * 3200000 + e.val = e.val
    omega
  · refine extractStridedSlice_apply _ ei Gen.slices_S2x3200000_S1x3200000_0_0 (ix2 (0 : Fin 1) e) (ix2 (0 : Fin 2) e) (fun a => ?_)
    match a with
    | ⟨0, _⟩ => rfl
    | ⟨1, _⟩ => show e.val = 0 + e.val; omega

/-- Entry e of the target words is entry (1, e) of the edge index array. -/
theorem dstIdx_apply (e : Fin 3200000) : dstIdx ei (ix1 e) = Gcn.ecol ei e := by
  unfold dstIdx
  refine (shapeCast_apply _ Gen.shapeCasts_S1x3200000_S3200000 (ix1 e) (ix2 (0 : Fin 1) e) ?_).trans ?_
  · rw [Shape.rowMajor_val_two, Shape.rowMajor_val_one]
    show (0 : Nat) * 3200000 + e.val = e.val
    omega
  · refine extractStridedSlice_apply _ ei Gen.slices_S2x3200000_S1x3200000_1_0 (ix2 (0 : Fin 1) e) (ix2 (1 : Fin 2) e) (fun a => ?_)
    match a with
    | ⟨0, _⟩ => rfl
    | ⟨1, _⟩ => show e.val = 0 + e.val; omega

/-- The wrapped words, entry by entry. -/
theorem wrapIdx_apply (v : IVec S3200000 32) (e : Fin 3200000) : wrapIdx v (ix1 e) = Gcn.wrap (v (ix1 e)) := rfl

/-- A one-column index array read at (e, 0) is the vector at e. -/
theorem asCol_apply (v : IVec S3200000 32) (e : Fin 3200000) : asCol v (ix2 e (0 : Fin 1)) = v (ix1 e) := by
  unfold asCol
  refine broadcastInDim_apply _ Gen.bcast_S3200000_S3200000x1_0 v (ix2 e (0 : Fin 1)) (ix1 e) (fun a => ?_)
  match a with
  | ⟨0, _⟩ => rfl

/-- The zero vector holds the zero word's value everywhere. -/
theorem zeroVec_apply (i : S100000.Idx) : zeroVec i = Gcn.zero32 := rfl

/-- The host's reciprocal square root, entry by entry. -/
theorem hostRsqrt_apply (x : FVec Ideal S100000 .f32) (i : S100000.Idx) :
    Host.rsqrt (F := Ideal) x i = Ideal.rsqrt (x i) := rfl

/-- The vector gather at e reads the node the index word of e names. -/
theorem gatherVec_apply (x : FVec Ideal S100000 .f32) (idx : IVec S3200000x1 32) (e : Fin 3200000) :
    Host.gather gather_S100000_S3200000x1_S3200000_n_0_n_n_0_1_1 x idx (ix1 e)
      = x (ix1 (RowGather.rowOf (N := 100000) (by decide) (idx (ix2 e (0 : Fin 1))))) :=
  Cert.Lib.VecIndex.gather_vec_apply (N := 100000) (E := 3200000) (by decide)
    Facts₀.gather_S100000_S3200000x1_S3200000_n_0_n_n_0_1_1_wf x idx e

/-- The row gather at (e, q) reads column q of the row the index word of e names. -/
theorem gatherRows_apply (x : FVec Ideal S100000x30 .f32) (idx : IVec S3200000x1 32) (e : Fin 3200000) (q : Fin 30) :
    Host.gather gather_S100000x30_S3200000x1_S3200000x30_1_0_n_n_0_1_130 x idx (ix2 e q)
      = x (ix2 (RowGather.rowOf (N := 100000) (by decide) (idx (ix2 e (0 : Fin 1)))) q) :=
  RowGather.gather_rows_apply (N := 100000) (C := 30) (E := 3200000) (by decide)
    Facts₀.gather_S100000x30_S3200000x1_S3200000x30_1_0_n_n_0_1_130_wf x idx e q

/-- An edge vector spread over the 30 columns: entry (e, q) is the vector's entry e. -/
theorem spreadEdges_apply (v : FVec Ideal S3200000 .f32) (e : Fin 3200000) (q : Fin 30) :
    broadcastInDim S3200000x30 ![0, 1] Gen.bcast_S3200000x1_S3200000x30_0_1
      (broadcastInDim S3200000x1 ![0] Gen.bcast_S3200000_S3200000x1_0 v) (ix2 e q) = v (ix1 e) := by
  refine (broadcastInDim_apply _ Gen.bcast_S3200000x1_S3200000x30_0_1 _ (ix2 e q) (ix2 e (0 : Fin 1)) (fun a => ?_)).trans ?_
  · match a with
    | ⟨0, _⟩ => rfl
    | ⟨1, _⟩ => rfl
  · refine broadcastInDim_apply _ Gen.bcast_S3200000_S3200000x1_0 v (ix2 e (0 : Fin 1)) (ix1 e) (fun a => ?_)
    match a with
    | ⟨0, _⟩ => rfl

/-- A node vector spread over the 30 columns: entry (n, q) is the vector's entry n. -/
theorem spreadNodes_apply (v : FVec Ideal S100000 .f32) (n : Fin 100000) (q : Fin 30) :
    broadcastInDim S100000x30 ![0, 1] Gen.bcast_S100000x1_S100000x30_0_1
      (broadcastInDim S100000x1 ![0] Gen.bcast_S100000_S100000x1_0 v) (ix2 n q) = v (ix1 n) := by
  refine (broadcastInDim_apply _ Gen.bcast_S100000x1_S100000x30_0_1 _ (ix2 n q) (ix2 n (0 : Fin 1)) (fun a => ?_)).trans ?_
  · match a with
    | ⟨0, _⟩ => rfl
    | ⟨1, _⟩ => rfl
  · refine broadcastInDim_apply _ Gen.bcast_S100000_S100000x1_0 v (ix2 n (0 : Fin 1)) (ix1 n) (fun a => ?_)
    match a with
    | ⟨0, _⟩ => rfl

/-- The degrees are the specification's. -/
theorem degArr_apply (n : Fin 100000) : degArr ei ew (ix1 n) = Gcn.degK (LayerArray.vec ew) (Gcn.ecol ei) n := by
  unfold degArr
  rw [addf_apply]
  refine congrArg₂ (· + ·) ?_ rfl
  refine (Cert.Lib.VecIndex.scatterAdd_vec_apply (N := 100000) (E := 3200000)
    Facts₀.scatter_S100000_S3200000x1_S3200000_n_0_0_1_wf zeroVec (asCol (dstIdx ei)) ew n).trans ?_
  rw [zeroVec_apply]
  refine congrArg (Gcn.zero32 + ·) ?_
  refine Finset.sum_congr ?_ (fun e _ => rfl)
  refine Finset.filter_congr (fun e _ => ?_)
  rw [asCol_apply, dstIdx_apply]

/-- The reciprocal roots are the specification's. -/
theorem disArr_apply (n : Fin 100000) :
    disArr ei ew (ix1 n) = Gcn.dinv (Gcn.degK (LayerArray.vec ew) (Gcn.ecol ei) n) := by
  unfold disArr
  rw [select_apply, cmpf_apply, hostRsqrt_apply, degArr_apply, zeroVec_apply]
  generalize Gcn.degK (LayerArray.vec ew) (Gcn.ecol ei) n = d
  rfl

/-- The edges' coefficients are the specification's, under the specification's degrees. -/
theorem normArr_apply (e : Fin 3200000) :
    normArr ei ew (ix1 e)
      = Gcn.coef (LayerArray.vec ew) (Gcn.erow ei) (Gcn.ecol ei) (Gcn.degK (LayerArray.vec ew) (Gcn.ecol ei)) e := by
  unfold normArr
  rw [mulf_apply, mulf_apply, gatherVec_apply, gatherVec_apply, asCol_apply, asCol_apply, wrapIdx_apply, wrapIdx_apply,
    srcIdx_apply, dstIdx_apply, disArr_apply, disArr_apply]
  rfl

/-- The scaled source rows, entry by entry. -/
theorem msgArr_apply (e : Fin 3200000) (q : Fin 30) :
    msgArr h ei ew (ix2 e q)
      = LayerAt.mat h (Gcn.node (Gcn.erow ei e)) q
          * Gcn.coef (LayerArray.vec ew) (Gcn.erow ei) (Gcn.ecol ei) (Gcn.degK (LayerArray.vec ew) (Gcn.ecol ei)) e := by
  unfold msgArr
  rw [mulf_apply, gatherRows_apply, spreadEdges_apply, normArr_apply, asCol_apply, wrapIdx_apply, srcIdx_apply]
  rfl

/-- The accumulated rows are the specification's spread. -/
theorem edgesArr_apply (n : Fin 100000) (q : Fin 30) :
    edgesArr h ei ew (ix2 n q)
      = Gcn.spread (LayerArray.vec ew) (Gcn.erow ei) (Gcn.ecol ei) (LayerAt.mat h)
          (Gcn.degK (LayerArray.vec ew) (Gcn.ecol ei)) n q := by
  unfold edgesArr Gcn.spread
  refine (Cert.Lib.SegmentSum.scatterAdd_rows_apply (N := 100000) (C := 30) (E := 3200000)
    Facts₀.scatter_S100000x30_S3200000x1_S3200000x30_1_0_0_1_wf _ (asCol (dstIdx ei)) (msgArr h ei ew) n q).trans ?_
  refine congrArg₂ (· + ·) rfl ?_
  refine Finset.sum_congr (Finset.filter_congr (fun e _ => ?_)) (fun e _ => msgArr_apply h ei ew e q)
  rw [asCol_apply, dstIdx_apply]

/-- The node's own scaled row, entry by entry. -/
theorem selfArr_apply (n : Fin 100000) (q : Fin 30) :
    selfArr h ei ew (ix2 n q)
      = LayerAt.mat h n q * (Gcn.dinv (Gcn.degK (LayerArray.vec ew) (Gcn.ecol ei) n)
          * Gcn.dinv (Gcn.degK (LayerArray.vec ew) (Gcn.ecol ei) n)) := by
  unfold selfArr
  rw [mulf_apply, spreadNodes_apply, mulf_apply, disArr_apply]

/-- Entry (n, k) of the array is the specification's aggregated feature. -/
theorem aggArr_apply (n : Fin 100000) (k : Fin 30) :
    aggArr h ei ew (ix2 n k)
      = Gcn.aggK (LayerAt.mat h) (LayerArray.vec ew) (Gcn.erow ei) (Gcn.ecol ei) n k := by
  unfold aggArr Gcn.aggK
  rw [addf_apply, edgesArr_apply, selfArr_apply]

end Reads

/-- Entry (n, k) of the array the region's first window stages. -/
theorem agg_apply (m : (ℓ : Loc nD τ sig) → Buf (Elt Ideal) ℓ) (c : Dev nD) (n : Fin 100000) (k : Fin 30) :
    LayerAt.mat (Gen.V m c main_v46) n k
      = Gcn.aggK (LayerAt.mat (m ((c.tc : Thread Cert.KernelIdeal.nD Cert.KernelIdeal.τ).loc Cert.KernelIdeal.main_arg0))) (LayerArray.vec (m ((c.tc : Thread Cert.KernelIdeal.nD Cert.KernelIdeal.τ).loc Cert.KernelIdeal.main_arg2)))
          (Gcn.erow (m ((c.tc : Thread Cert.KernelIdeal.nD Cert.KernelIdeal.τ).loc Cert.KernelIdeal.main_arg1))) (Gcn.ecol (m ((c.tc : Thread Cert.KernelIdeal.nD Cert.KernelIdeal.τ).loc Cert.KernelIdeal.main_arg1))) n k :=
  (congrFun (V_eq m c) (ix2 n k)).trans (aggArr_apply _ _ _ n k)

end Cert.KernelIdeal.KAgg

end
-- ==== Proof.RefConv.lean ====
/-
  The reference's convolution read at an entry. The reference projects the node features first, extends the edge
  list by one self-loop of weight one per node (three concatenations), accumulates the extended weights at the targets
  for the degrees, takes the reciprocal square root where positive, forms each extended edge's symmetric coefficient,
  scales the projected source rows and accumulates them at the targets, and adds the bias. Entry (n, q) of the result
  is the specification's convolution over the extended edge list.
-/
import proofs.«101079_j62629213110804_2_alg».proof.Proof.Gen.ReferenceIdeal.Read
import proofs.«101079_j62629213110804_2_alg».proof.Proof.GcnSpec
import proofs.«101079_j62629213110804_2_alg».proof.Proof.LibVecIndex
import proofs.«101079_j62629213110804_2_alg».proof.Proof.LibSegmentSum
import Idealize.ShloMosaic.Lib.Pipeline.Value

noncomputable section

open scoped BigOperators

namespace Cert.ReferenceIdeal.RefConv

open Idealize.ShloMosaic Idealize.ShloMosaic.ValueIdx Cert.ReferenceIdeal Cert.Bridge

/-- The source words: row 0 of the edge array, through the slice and the reshape. -/
theorem v3_apply (x1 : (⟨S2x3200000, .i32⟩ : BufTy).Contents (Elt Ideal)) (e : Fin 3200000) :
    Read.val_main_v3 (F := Ideal) x1 (ix1 e) = Gcn.erow x1 e := by
  rw [Read.val_main_v3_apply, Read.val_main_v2_apply]
  unfold Gcn.erow
  congr 1
  funext a
  refine Fin.ext ?_
  match a with
  | ⟨0, _⟩ => rfl
  | ⟨1, _⟩ => exact Nat.mod_eq_of_lt e.isLt

/-- The target words: row 1 of the edge array, through the slice and the reshape. -/
theorem v6_apply (x1 : (⟨S2x3200000, .i32⟩ : BufTy).Contents (Elt Ideal)) (e : Fin 3200000) :
    Read.val_main_v6 (F := Ideal) x1 (ix1 e) = Gcn.ecol x1 e := by
  rw [Read.val_main_v6_apply, Read.val_main_v5_apply]
  unfold Gcn.ecol
  congr 1
  funext a
  refine Fin.ext ?_
  match a with
  | ⟨0, _⟩ => rfl
  | ⟨1, _⟩ => exact Nat.mod_eq_of_lt e.isLt

/-- The extended source words: the edges' source words, then one self-loop word per node. -/
theorem v4_apply (x1 : (⟨S2x3200000, .i32⟩ : BufTy).Contents (Elt Ideal)) (e' : Fin 3300000) :
    Read.val_main_v4 (F := Ideal) x1 (ix1 e') = Gcn.cat (Gcn.erow x1) Gcn.loopIdx e' := by
  unfold Read.val_main_v4 Gcn.cat
  by_cases hlt : e'.val < 3200000
  · rw [dif_pos hlt]
    refine (concatenate_pair_apply_left (t := S3300000) (s₁ := S3200000) (s₂ := S100000) 0
      (Read.val_main_v3 (F := Ideal) x1) (Read.val_main_v1 (F := Ideal)) _ (ix1 e') rfl
      (ix1 (⟨e'.val, hlt⟩ : Fin 3200000)) ?_).trans (v3_apply x1 _)
    intro b
    match b with
    | ⟨0, _⟩ => rfl
  · rw [dif_neg hlt]
    refine (concatenate_pair_apply_right (t := S3300000) (s₁ := S3200000) (s₂ := S100000) 0
      (Read.val_main_v3 (F := Ideal) x1) (Read.val_main_v1 (F := Ideal)) _ (ix1 e') rfl rfl
      (ix1 (⟨e'.val - 3200000, by omega⟩ : Fin 100000)) ?_ ?_).trans ?_
    · intro b hb
      match b with
      | ⟨0, _⟩ => exact absurd rfl hb
    · show (e'.val - 3200000) + 3200000 = e'.val
      omega
    · rfl

/-- The extended target words: the edges' target words, then one self-loop word per node. -/
theorem v7_apply (x1 : (⟨S2x3200000, .i32⟩ : BufTy).Contents (Elt Ideal)) (e' : Fin 3300000) :
    Read.val_main_v7 (F := Ideal) x1 (ix1 e') = Gcn.cat (Gcn.ecol x1) Gcn.loopIdx e' := by
  unfold Read.val_main_v7 Gcn.cat
  by_cases hlt : e'.val < 3200000
  · rw [dif_pos hlt]
    refine (concatenate_pair_apply_left (t := S3300000) (s₁ := S3200000) (s₂ := S100000) 0
      (Read.val_main_v6 (F := Ideal) x1) (Read.val_main_v1 (F := Ideal)) _ (ix1 e') rfl
      (ix1 (⟨e'.val, hlt⟩ : Fin 3200000)) ?_).trans (v6_apply x1 _)
    intro b
    match b with
    | ⟨0, _⟩ => rfl
  · rw [dif_neg hlt]
    refine (concatenate_pair_apply_right (t := S3300000) (s₁ := S3200000) (s₂ := S100000) 0
      (Read.val_main_v6 (F := Ideal) x1) (Read.val_main_v1 (F := Ideal)) _ (ix1 e') rfl rfl
      (ix1 (⟨e'.val - 3200000, by omega⟩ : Fin 100000)) ?_ ?_).trans ?_
    · intro b hb
      match b with
      | ⟨0, _⟩ => exact absurd rfl hb
    · show (e'.val - 3200000) + 3200000 = e'.val
      omega
    · rfl

/-- The extended weights: the edges' weights, then weight one per self-loop. -/
theorem v9_apply (x2 : (⟨S3200000, .f32⟩ : BufTy).Contents (Elt Ideal)) (e' : Fin 3300000) :
    Read.val_main_v9 (F := Ideal) x2 (ix1 e') = Gcn.cat (LayerArray.vec x2) (fun _ => Gcn.one32) e' := by
  unfold Read.val_main_v9 Gcn.cat
  by_cases hlt : e'.val < 3200000
  · rw [dif_pos hlt]
    exact concatenate_pair_apply_left (t := S3300000) (s₁ := S3200000) (s₂ := S100000) 0
      x2 (Read.val_main_v8 (F := Ideal)) _ (ix1 e') rfl
      (ix1 (⟨e'.val, hlt⟩ : Fin 3200000)) (fun b => match b with | ⟨0, _⟩ => rfl)
  · rw [dif_neg hlt]
    refine (concatenate_pair_apply_right (t := S3300000) (s₁ := S3200000) (s₂ := S100000) 0
      x2 (Read.val_main_v8 (F := Ideal)) _ (ix1 e') rfl rfl
      (ix1 (⟨e'.val - 3200000, by omega⟩ : Fin 100000)) ?_ ?_).trans ?_
    · intro b hb
      match b with
      | ⟨0, _⟩ => exact absurd rfl hb
    · show (e'.val - 3200000) + 3200000 = e'.val
      omega
    · rw [Read.val_main_v8_apply, Read.val_main_cst_apply]
      rfl

/-- Two indices of a one-axis array with the same coordinate are equal. -/
theorem idx1_ext {n : Nat} (i j : (⟨1, ![n]⟩ : Shape).Idx) (h : (i 0).val = (j 0).val) : i = j := by
  funext a
  match a with
  | ⟨0, _⟩ => exact Fin.ext h

/-- The scatter indices of the degree accumulation are the extended target words. -/
theorem v11_apply (x1 : (⟨S2x3200000, .i32⟩ : BufTy).Contents (Elt Ideal)) (e' : Fin 3300000) :
    Read.val_main_v11 (F := Ideal) x1 (ix2 e' (0 : Fin 1)) = Gcn.cat (Gcn.ecol x1) Gcn.loopIdx e' := by
  rw [Read.val_main_v11_apply]
  exact (congrArg (Read.val_main_v7 (F := Ideal) x1) (idx1_ext (Read.idx_main_v11 (ix2 e' (0 : Fin 1))) (ix1 e') rfl)).trans (v7_apply x1 e')

/-- The degrees: the extended weights accumulated at the extended target words, into the zero word. -/
theorem v12_apply (x1 : (⟨S2x3200000, .i32⟩ : BufTy).Contents (Elt Ideal)) (x2 : (⟨S3200000, .f32⟩ : BufTy).Contents (Elt Ideal)) (n : Fin 100000) :
    Read.val_main_v12 (F := Ideal) x1 x2 (ix1 n)
      = Gcn.wsum (Gcn.cat (LayerArray.vec x2) fun _ => Gcn.one32) (Gcn.cat (Gcn.ecol x1) Gcn.loopIdx) n := by
  unfold Read.val_main_v12 Gcn.wsum Gcn.seg
  refine (Cert.Lib.VecIndex.scatterAdd_vec_apply (N := 100000) (E := 3300000) _
    (Read.val_main_v10 (F := Ideal)) (Read.val_main_v11 (F := Ideal) x1) (Read.val_main_v9 (F := Ideal) x2) n).trans ?_
  rw [Read.val_main_v10_apply, Read.val_main_cst_0_apply]
  simp only [v11_apply, v9_apply]
  rfl

/-- The reciprocal square root of each degree where it is positive, the zero word elsewhere. -/
theorem v16_apply (x1 : (⟨S2x3200000, .i32⟩ : BufTy).Contents (Elt Ideal)) (x2 : (⟨S3200000, .f32⟩ : BufTy).Contents (Elt Ideal)) (n : Fin 100000) :
    Read.val_main_v16 (F := Ideal) x1 x2 (ix1 n) = Gcn.dinv ((Gcn.wsum (Gcn.cat (LayerArray.vec x2) fun _ => Gcn.one32) (Gcn.cat (Gcn.ecol x1) Gcn.loopIdx)) n) := by
  rw [Read.val_main_v16_apply, Read.val_main_v14_apply, Read.val_main_v15_apply, Read.val_main_call0_v1_apply,
    Read.val_main_call0_v0_apply, Read.val_main_cst_2_apply, Read.val_main_v13_apply, Read.val_main_cst_1_apply,
    v12_apply]
  generalize (Gcn.wsum (Gcn.cat (LayerArray.vec x2) fun _ => Gcn.one32) (Gcn.cat (Gcn.ecol x1) Gcn.loopIdx)) n = d
  rfl

/-- The source words with a negative word wrapped by the node count (first use). -/
theorem v21_apply (x1 : (⟨S2x3200000, .i32⟩ : BufTy).Contents (Elt Ideal)) (e' : Fin 3300000) :
    Read.val_main_v21 (F := Ideal) x1 (ix1 e') = Gcn.wrap ((Gcn.cat (Gcn.erow x1) Gcn.loopIdx) e') := by
  rw [Read.val_main_v21_apply, Read.val_main_v18_apply, Read.val_main_v20_apply, Read.val_main_v17_apply,
    Read.val_main_c_apply, Read.val_main_v19_apply, Read.val_main_c_3_apply, v4_apply]
  rfl

/-- The target words with a negative word wrapped by the node count. -/
theorem v29_apply (x1 : (⟨S2x3200000, .i32⟩ : BufTy).Contents (Elt Ideal)) (e' : Fin 3300000) :
    Read.val_main_v29 (F := Ideal) x1 (ix1 e') = Gcn.wrap ((Gcn.cat (Gcn.ecol x1) Gcn.loopIdx) e') := by
  rw [Read.val_main_v29_apply, Read.val_main_v26_apply, Read.val_main_v28_apply, Read.val_main_v25_apply,
    Read.val_main_c_4_apply, Read.val_main_v27_apply, Read.val_main_c_5_apply, v7_apply]
  rfl

/-- The source words with a negative word wrapped by the node count (second use). -/
theorem v37_apply (x1 : (⟨S2x3200000, .i32⟩ : BufTy).Contents (Elt Ideal)) (e' : Fin 3300000) :
    Read.val_main_v37 (F := Ideal) x1 (ix1 e') = Gcn.wrap ((Gcn.cat (Gcn.erow x1) Gcn.loopIdx) e') := by
  rw [Read.val_main_v37_apply, Read.val_main_v34_apply, Read.val_main_v36_apply, Read.val_main_v33_apply,
    Read.val_main_c_6_apply, Read.val_main_v35_apply, Read.val_main_c_7_apply, v4_apply]
  rfl

/-- The start indices of the first vector gather: the wrapped source words. -/
theorem v22_apply (x1 : (⟨S2x3200000, .i32⟩ : BufTy).Contents (Elt Ideal)) (e' : Fin 3300000) :
    Read.val_main_v22 (F := Ideal) x1 (ix2 e' (0 : Fin 1)) = Gcn.wrap ((Gcn.cat (Gcn.erow x1) Gcn.loopIdx) e') := by
  rw [Read.val_main_v22_apply]
  exact (congrArg (Read.val_main_v21 (F := Ideal) x1)
    (idx1_ext (Read.idx_main_v22 (ix2 e' (0 : Fin 1))) (ix1 e') rfl)).trans (v21_apply x1 e')

/-- The start indices of the second vector gather: the wrapped target words. -/
theorem v30_apply (x1 : (⟨S2x3200000, .i32⟩ : BufTy).Contents (Elt Ideal)) (e' : Fin 3300000) :
    Read.val_main_v30 (F := Ideal) x1 (ix2 e' (0 : Fin 1)) = Gcn.wrap ((Gcn.cat (Gcn.ecol x1) Gcn.loopIdx) e') := by
  rw [Read.val_main_v30_apply]
  exact (congrArg (Read.val_main_v29 (F := Ideal) x1)
    (idx1_ext (Read.idx_main_v30 (ix2 e' (0 : Fin 1))) (ix1 e') rfl)).trans (v29_apply x1 e')

/-- The start indices of the row gather: the wrapped source words. -/
theorem v38_apply (x1 : (⟨S2x3200000, .i32⟩ : BufTy).Contents (Elt Ideal)) (e' : Fin 3300000) :
    Read.val_main_v38 (F := Ideal) x1 (ix2 e' (0 : Fin 1)) = Gcn.wrap ((Gcn.cat (Gcn.erow x1) Gcn.loopIdx) e') := by
  rw [Read.val_main_v38_apply]
  exact (congrArg (Read.val_main_v37 (F := Ideal) x1)
    (idx1_ext (Read.idx_main_v38 (ix2 e' (0 : Fin 1))) (ix1 e') rfl)).trans (v37_apply x1 e')

/-- The reciprocal root of the degree at each extended edge's source node. -/
theorem v23_apply (x1 : (⟨S2x3200000, .i32⟩ : BufTy).Contents (Elt Ideal)) (x2 : (⟨S3200000, .f32⟩ : BufTy).Contents (Elt Ideal)) (e' : Fin 3300000) :
    Read.val_main_v23 (F := Ideal) x1 x2 (ix1 e') = Gcn.dinv ((Gcn.wsum (Gcn.cat (LayerArray.vec x2) fun _ => Gcn.one32) (Gcn.cat (Gcn.ecol x1) Gcn.loopIdx)) (Gcn.node ((Gcn.cat (Gcn.erow x1) Gcn.loopIdx) e'))) := by
  unfold Read.val_main_v23
  refine (Cert.Lib.VecIndex.gather_vec_apply (N := 100000) (E := 3300000) (by decide) _
    (Read.val_main_v16 (F := Ideal) x1 x2) (Read.val_main_v22 (F := Ideal) x1) e').trans ?_
  rw [v22_apply]
  exact v16_apply x1 x2 _

/-- The reciprocal root of the degree at each extended edge's target node. -/
theorem v31_apply (x1 : (⟨S2x3200000, .i32⟩ : BufTy).Contents (Elt Ideal)) (x2 : (⟨S3200000, .f32⟩ : BufTy).Contents (Elt Ideal)) (e' : Fin 3300000) :
    Read.val_main_v31 (F := Ideal) x1 x2 (ix1 e') = Gcn.dinv ((Gcn.wsum (Gcn.cat (LayerArray.vec x2) fun _ => Gcn.one32) (Gcn.cat (Gcn.ecol x1) Gcn.loopIdx)) (Gcn.node ((Gcn.cat (Gcn.ecol x1) Gcn.loopIdx) e'))) := by
  unfold Read.val_main_v31
  refine (Cert.Lib.VecIndex.gather_vec_apply (N := 100000) (E := 3300000) (by decide) _
    (Read.val_main_v16 (F := Ideal) x1 x2) (Read.val_main_v30 (F := Ideal) x1) e').trans ?_
  rw [v30_apply]
  exact v16_apply x1 x2 _

/-- The symmetric coefficient of each extended edge. -/
theorem v32_apply (x1 : (⟨S2x3200000, .i32⟩ : BufTy).Contents (Elt Ideal)) (x2 : (⟨S3200000, .f32⟩ : BufTy).Contents (Elt Ideal)) (e' : Fin 3300000) :
    Read.val_main_v32 (F := Ideal) x1 x2 (ix1 e') = Gcn.coef (Gcn.cat (LayerArray.vec x2) fun _ => Gcn.one32) (Gcn.cat (Gcn.erow x1) Gcn.loopIdx) (Gcn.cat (Gcn.ecol x1) Gcn.loopIdx) (Gcn.wsum (Gcn.cat (LayerArray.vec x2) fun _ => Gcn.one32) (Gcn.cat (Gcn.ecol x1) Gcn.loopIdx)) e' := by
  rw [Read.val_main_v32_apply, Read.val_main_v24_apply, v23_apply, v31_apply, v9_apply]
  rfl

/-- Two indices of a two-axis array with the same coordinates are equal. -/
theorem idx2_ext {m n : Nat} (i j : (⟨2, ![m, n]⟩ : Shape).Idx) (h0 : (i 0).val = (j 0).val)
    (h1 : (i 1).val = (j 1).val) : i = j := by
  funext a
  match a with
  | ⟨0, _⟩ => exact Fin.ext h0
  | ⟨1, _⟩ => exact Fin.ext h1

/-- The projected features: entry (m, q) is the sum over k of the feature (m, k) times the weight (k, q). -/
theorem v0_apply (x0 : (⟨S100000x30, .f32⟩ : BufTy).Contents (Elt Ideal)) (x3 : (⟨S30x30, .f32⟩ : BufTy).Contents (Elt Ideal)) (m : Fin 100000) (q : Fin 30) :
    Read.val_main_v0 (F := Ideal) x0 x3 (ix2 m q) = (Gcn.proj (LayerAt.mat x0) (LayerAt.mat x3)) m q := by
  rw [Read.val_main_v0_apply]
  unfold Gcn.proj
  refine Finset.sum_congr rfl fun k _ => ?_
  exact congrArg₂ (· * ·) (congrArg x0 (idx2_ext (Read.lidx_main_v0 (ix2 m q) k) (ix2 m k) rfl rfl))
    (congrArg x3 (idx2_ext (Read.ridx_main_v0 (ix2 m q) k) (ix2 k q) rfl rfl))

/-- The projected row of each extended edge's source node. -/
theorem v39_apply (x0 : (⟨S100000x30, .f32⟩ : BufTy).Contents (Elt Ideal)) (x1 : (⟨S2x3200000, .i32⟩ : BufTy).Contents (Elt Ideal)) (x3 : (⟨S30x30, .f32⟩ : BufTy).Contents (Elt Ideal)) (e' : Fin 3300000) (q : Fin 30) :
    Read.val_main_v39 (F := Ideal) x0 x1 x3 (ix2 e' q) = (Gcn.proj (LayerAt.mat x0) (LayerAt.mat x3)) (Gcn.node ((Gcn.cat (Gcn.erow x1) Gcn.loopIdx) e')) q := by
  unfold Read.val_main_v39
  refine (RowGather.gather_rows_apply (N := 100000) (C := 30) (E := 3300000) (by decide) _
    (Read.val_main_v0 (F := Ideal) x0 x3) (Read.val_main_v38 (F := Ideal) x1) e' q).trans ?_
  rw [v38_apply]
  exact v0_apply x0 x3 _ q

/-- The coefficient of extended edge e', repeated along the feature axis. -/
theorem v41_apply (x1 : (⟨S2x3200000, .i32⟩ : BufTy).Contents (Elt Ideal)) (x2 : (⟨S3200000, .f32⟩ : BufTy).Contents (Elt Ideal)) (e' : Fin 3300000) (q : Fin 30) :
    Read.val_main_v41 (F := Ideal) x1 x2 (ix2 e' q) = Gcn.coef (Gcn.cat (LayerArray.vec x2) fun _ => Gcn.one32) (Gcn.cat (Gcn.erow x1) Gcn.loopIdx) (Gcn.cat (Gcn.ecol x1) Gcn.loopIdx) (Gcn.wsum (Gcn.cat (LayerArray.vec x2) fun _ => Gcn.one32) (Gcn.cat (Gcn.ecol x1) Gcn.loopIdx)) e' := by
  rw [Read.val_main_v41_apply, Read.val_main_v40_apply]
  exact (congrArg (Read.val_main_v32 (F := Ideal) x1 x2)
    (idx1_ext (Read.idx_main_v40 (Read.idx_main_v41 (ix2 e' q))) (ix1 e') rfl)).trans (v32_apply x1 x2 e')

/-- The message of extended edge e' in feature q: the projected source row scaled by the coefficient. -/
theorem v42_apply (x0 : (⟨S100000x30, .f32⟩ : BufTy).Contents (Elt Ideal)) (x1 : (⟨S2x3200000, .i32⟩ : BufTy).Contents (Elt Ideal)) (x2 : (⟨S3200000, .f32⟩ : BufTy).Contents (Elt Ideal)) (x3 : (⟨S30x30, .f32⟩ : BufTy).Contents (Elt Ideal)) (e' : Fin 3300000) (q : Fin 30) :
    Read.val_main_v42 (F := Ideal) x0 x1 x2 x3 (ix2 e' q)
      = (Gcn.proj (LayerAt.mat x0) (LayerAt.mat x3)) (Gcn.node ((Gcn.cat (Gcn.erow x1) Gcn.loopIdx) e')) q * Gcn.coef (Gcn.cat (LayerArray.vec x2) fun _ => Gcn.one32) (Gcn.cat (Gcn.erow x1) Gcn.loopIdx) (Gcn.cat (Gcn.ecol x1) Gcn.loopIdx) (Gcn.wsum (Gcn.cat (LayerArray.vec x2) fun _ => Gcn.one32) (Gcn.cat (Gcn.ecol x1) Gcn.loopIdx)) e' := by
  rw [Read.val_main_v42_apply, v39_apply, v41_apply]
  rfl

/-- The scatter indices of the row accumulation are the extended target words. -/
theorem v44_apply (x1 : (⟨S2x3200000, .i32⟩ : BufTy).Contents (Elt Ideal)) (e' : Fin 3300000) :
    Read.val_main_v44 (F := Ideal) x1 (ix2 e' (0 : Fin 1)) = (Gcn.cat (Gcn.ecol x1) Gcn.loopIdx) e' := by
  rw [Read.val_main_v44_apply]
  exact (congrArg (Read.val_main_v7 (F := Ideal) x1)
    (idx1_ext (Read.idx_main_v44 (ix2 e' (0 : Fin 1))) (ix1 e') rfl)).trans (v7_apply x1 e')

/-- The messages accumulated at the extended target words, into the zero word. -/
theorem v45_apply (x0 : (⟨S100000x30, .f32⟩ : BufTy).Contents (Elt Ideal)) (x1 : (⟨S2x3200000, .i32⟩ : BufTy).Contents (Elt Ideal)) (x2 : (⟨S3200000, .f32⟩ : BufTy).Contents (Elt Ideal)) (x3 : (⟨S30x30, .f32⟩ : BufTy).Contents (Elt Ideal)) (n : Fin 100000) (q : Fin 30) :
    Read.val_main_v45 (F := Ideal) x0 x1 x2 x3 (ix2 n q)
      = Gcn.spread (Gcn.cat (LayerArray.vec x2) fun _ => Gcn.one32) (Gcn.cat (Gcn.erow x1) Gcn.loopIdx) (Gcn.cat (Gcn.ecol x1) Gcn.loopIdx) (Gcn.proj (LayerAt.mat x0) (LayerAt.mat x3)) (Gcn.wsum (Gcn.cat (LayerArray.vec x2) fun _ => Gcn.one32) (Gcn.cat (Gcn.ecol x1) Gcn.loopIdx)) n q := by
  unfold Read.val_main_v45 Gcn.spread Gcn.seg
  refine (Cert.Lib.SegmentSum.scatterAdd_rows_apply (N := 100000) (C := 30) (E := 3300000) _
    (Read.val_main_v43 (F := Ideal)) (Read.val_main_v44 (F := Ideal) x1)
    (Read.val_main_v42 (F := Ideal) x0 x1 x2 x3) n q).trans ?_
  rw [Read.val_main_v43_apply, Read.val_main_cst_8_apply]
  simp only [v44_apply, v42_apply]
  rfl

/-- The bias, repeated along the node axis. -/
theorem v47_apply (x4 : (⟨S30, .f32⟩ : BufTy).Contents (Elt Ideal)) (n : Fin 100000) (q : Fin 30) :
    Read.val_main_v47 (F := Ideal) x4 (ix2 n q) = LayerArray.vec x4 q := by
  rw [Read.val_main_v47_apply, Read.val_main_v46_apply]
  exact congrArg x4 (idx1_ext (Read.idx_main_v46 (Read.idx_main_v47 (ix2 n q))) (ix1 q) rfl)

/-- Entry (n, q) of the convolution with its bias, before the clamp. -/
theorem conv_apply (x0 : (⟨S100000x30, .f32⟩ : BufTy).Contents (Elt Ideal)) (x1 : (⟨S2x3200000, .i32⟩ : BufTy).Contents (Elt Ideal)) (x2 : (⟨S3200000, .f32⟩ : BufTy).Contents (Elt Ideal)) (x3 : (⟨S30x30, .f32⟩ : BufTy).Contents (Elt Ideal)) (x4 : (⟨S30, .f32⟩ : BufTy).Contents (Elt Ideal)) (n : Fin 100000) (q : Fin 30) :
    Read.val_main_v48 (F := Ideal) x0 x1 x2 x3 x4 (ix2 n q)
      = Gcn.convR (LayerAt.mat x0) (LayerArray.vec x2) (Gcn.erow x1) (Gcn.ecol x1) (LayerAt.mat x3) (LayerArray.vec x4) n q := by
  rw [Read.val_main_v48_apply, v45_apply, v47_apply]
  rfl

end Cert.ReferenceIdeal.RefConv

end
-- ==== Proof.LibGatherLayer.lean ====
/-
  Three general facts behind "run a dense layer once per row, then gather rows" against "gather rows, then run the
  layer on the gathered rows", on the extended reals.

  (1) A row gather commutes with a dense layer. Row p of a layer's output depends on row p of its input alone, so
      gathering rows of the layer's output (by any start indices, clamped the same way on both sides because both
      operands have the same number of rows) is the layer of the gathered rows. Any extents; no finiteness: both
      sides are the same sum at every entry.
  (2) Accumulating updates into an array of zeros and adding the result to x is accumulating them into x: at each
      entry, x + (0 + s) = x + s, where s is the sum of the updates that land there. Addition on the extended reals
      is a commutative monoid, so nothing is assumed finite.
  (3) The host's dense layer is the layer as one array: a product G · W, plus an array holding b[q] at every (p, q),
      clamped against an array of the zero word, is the array whose entry (p, q) is the hidden layer's. Any extents.
-/
import proofs.«101079_j62629213110804_2_alg».proof.Proof.LibRowGather
import proofs.«101079_j62629213110804_2_alg».proof.Proof.LayerArray
import Idealize.ShloMosaic.PureOps.Contract
import Idealize.ShloMosaic.PureOps.Ideal

noncomputable section

namespace Cert.Bridge.MessagePassing

open Idealize.ShloMosaic Idealize.ShloMosaic.ValueIdx Cert.Bridge Cert.Bridge.RowGather

/-- Gathering rows of a layer's output is the layer of the gathered rows. -/
theorem gather_layer {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (A : (⟨2, ![N, K]⟩ : Shape).Idx → EReal) (W : (⟨2, ![K, C]⟩ : Shape).Idx → EReal)
    (b : (⟨1, ![C]⟩ : Shape).Idx → EReal) (idx : IVec ⟨2, ![E, 1]⟩ w) :
    Host.gather (rowDims N C E wfC) (LayerArray.rows A W b) idx
      = LayerArray.rows (Host.gather (rowDims N K E wfK) A idx) W b := by
  funext j
  obtain ⟨e, q, rfl⟩ : ∃ (e : Fin E) (q : Fin C), j = ix2 e q := ⟨j 0, j 1, eq_ix2 j⟩
  rw [gather_rows_apply hN, LayerArray.rows_apply, LayerArray.rows_apply]
  have hrows : LayerAt.mat (Host.gather (rowDims N K E wfK) A idx)
      = fun r => LayerAt.mat A (rowOf hN (idx (ix2 r (0 : Fin 1)))) := by
    funext r k
    exact gather_rows_apply hN wfK A idx r k
  rw [hrows]
  exact (congrFun (congrFun (Spec.layer_rows (fun r => rowOf hN (idx (ix2 r (0 : Fin 1))))
    (LayerAt.mat A) (LayerAt.mat W) (LayerArray.vec b)) e) q).symm

/-- Adding x to an accumulation into zeros is the accumulation into x. -/
theorem add_scatter_zero {s si su : Shape} {w : Nat} {φ : FTy} (d : ScatterDims s si su)
    (x z : FVec Ideal s φ) (hz : ∀ i, z i = (0 : EReal)) (idx : IVec si w) (upd : FVec Ideal su φ) :
    addf x (Host.scatterAdd d z idx upd) = Host.scatterAdd d x idx upd := by
  funext i
  show x i + (z i + _) = x i + _
  rw [hz i, zero_add]

/-- The host's dense layer is the same array: a product of G (M by K) with W (K by N), plus an array B that holds
    b[q] at every entry (p, q), clamped against an array Z that holds the zero word's value everywhere. -/
theorem host_layer {M K N : Nat} (prec : Option ContractPrecision) (sched : HostSchedule)
    (G : FVec Ideal ⟨2, ![M, K]⟩ .f32) (W : FVec Ideal ⟨2, ![K, N]⟩ .f32) (B Z : FVec Ideal ⟨2, ![M, N]⟩ .f32)
    (b : (⟨1, ![N]⟩ : Shape).Idx → EReal) (hB : ∀ (p : Fin M) (q : Fin N), B (ix2 p q) = b (ix1 q))
    (hZ : ∀ j, Z j = Spec.floor0) :
    maximumf (addf (FloatOps.dotGeneral (DotDims.plain M K N) prec sched G W) B) Z = LayerArray.rows G W b := by
  funext j
  obtain ⟨p, q, rfl⟩ : ∃ (p : Fin M) (q : Fin N), j = ix2 p q := ⟨j 0, j 1, eq_ix2 j⟩
  rw [maximumf_apply, addf_apply, LibMatmul.dotGeneral_apply, hB, hZ, LayerArray.rows_apply]
  rfl

end Cert.Bridge.MessagePassing

end
-- ==== Proof.RefTail.lean ====
/-
  The reference after its convolution, read at a node. The reference clamps the convolution at zero, runs three
  clamped dense layers and a last unclamped one as whole-array products with spread biases, and applies the logistic
  spelt as one over one plus the exponential of the negation; the last line drops the column's unit axis. Node n's
  result is the specification's tail of the clamped convolution.

  Each stage is read at an entry (n, q) from the stage before it: a product's entry is the sum over k of the left
  operand at (n, k) times the weights at (k, q); a bias vector spread first to one row and then over all rows is read
  at q; a clamp against an array holding the zero word is the maximum with that word's value. So each clamped stage,
  as a matrix, is the specification's hidden layer of the stage before it, and the four layers compose by congruence.
  One over one plus the exponential of the negation is the logistic once the word 0x3F800000 is read as one.
-/
import proofs.«101079_j62629213110804_2_alg».proof.Proof.Gen.ReferenceIdeal.Read
import proofs.«101079_j62629213110804_2_alg».proof.Proof.GcnSpec
import proofs.«101079_j62629213110804_2_alg».proof.Proof.LibGatherLayer
import Idealize.ShloMosaic.Lib.Pipeline.Value
import Idealize.ShloMosaic.Lib.IdealHost

noncomputable section

open scoped BigOperators

namespace Cert.ReferenceIdeal.RefTail

open Idealize.ShloMosaic Idealize.ShloMosaic.ValueIdx Cert.ReferenceIdeal Cert.Bridge

section Stages

variable (x0 : (⟨S100000x30, .f32⟩ : BufTy).Contents (Elt Ideal)) (x1 : (⟨S2x3200000, .i32⟩ : BufTy).Contents (Elt Ideal)) (x2 : (⟨S3200000, .f32⟩ : BufTy).Contents (Elt Ideal)) (x3 : (⟨S30x30, .f32⟩ : BufTy).Contents (Elt Ideal)) (x4 : (⟨S30, .f32⟩ : BufTy).Contents (Elt Ideal)) (x5 : (⟨S30x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x1, .f32⟩ : BufTy).Contents (Elt Ideal)) (x12 : (⟨S1, .f32⟩ : BufTy).Contents (Elt Ideal))

/-! The index a product, or a spread bias, reads at entry (n, q), in coordinates. -/

theorem lidx50 (n : Fin 100000) (q : Fin 10) (k : Fin 30) : Read.lidx_main_v50 (ix2 n q) k = ix2 n k :=
  funext fun a => Fin.ext (by match a with | ⟨0, _⟩ => rfl | ⟨1, _⟩ => rfl)
theorem ridx50 (n : Fin 100000) (q : Fin 10) (k : Fin 30) : Read.ridx_main_v50 (ix2 n q) k = ix2 k q :=
  funext fun a => Fin.ext (by match a with | ⟨0, _⟩ => rfl | ⟨1, _⟩ => rfl)
theorem bidx52 (n : Fin 100000) (q : Fin 10) : Read.idx_main_v51 (Read.idx_main_v52 (ix2 n q)) = ix1 q :=
  funext fun a => Fin.ext (by match a with | ⟨0, _⟩ => rfl)

theorem lidx55 (n : Fin 100000) (q : Fin 10) (k : Fin 10) : Read.lidx_main_v55 (ix2 n q) k = ix2 n k :=
  funext fun a => Fin.ext (by match a with | ⟨0, _⟩ => rfl | ⟨1, _⟩ => rfl)
theorem ridx55 (n : Fin 100000) (q : Fin 10) (k : Fin 10) : Read.ridx_main_v55 (ix2 n q) k = ix2 k q :=
  funext fun a => Fin.ext (by match a with | ⟨0, _⟩ => rfl | ⟨1, _⟩ => rfl)
theorem bidx57 (n : Fin 100000) (q : Fin 10) : Read.idx_main_v56 (Read.idx_main_v57 (ix2 n q)) = ix1 q :=
  funext fun a => Fin.ext (by match a with | ⟨0, _⟩ => rfl)

theorem lidx60 (n : Fin 100000) (q : Fin 10) (k : Fin 10) : Read.lidx_main_v60 (ix2 n q) k = ix2 n k :=
  funext fun a => Fin.ext (by match a with | ⟨0, _⟩ => rfl | ⟨1, _⟩ => rfl)
theorem ridx60 (n : Fin 100000) (q : Fin 10) (k : Fin 10) : Read.ridx_main_v60 (ix2 n q) k = ix2 k q :=
  funext fun a => Fin.ext (by match a with | ⟨0, _⟩ => rfl | ⟨1, _⟩ => rfl)
theorem bidx62 (n : Fin 100000) (q : Fin 10) : Read.idx_main_v61 (Read.idx_main_v62 (ix2 n q)) = ix1 q :=
  funext fun a => Fin.ext (by match a with | ⟨0, _⟩ => rfl)

theorem lidx65 (n : Fin 100000) (q : Fin 1) (k : Fin 10) : Read.lidx_main_v65 (ix2 n q) k = ix2 n k :=
  funext fun a => Fin.ext (by match a with | ⟨0, _⟩ => rfl | ⟨1, _⟩ => rfl)
theorem ridx65 (n : Fin 100000) (q : Fin 1) (k : Fin 10) : Read.ridx_main_v65 (ix2 n q) k = ix2 k q :=
  funext fun a => Fin.ext (by match a with | ⟨0, _⟩ => rfl | ⟨1, _⟩ => rfl)
/-- The length-one bias has one entry, so its spread reads it whatever the column. -/
theorem bidx67 (n : Fin 100000) (q : Fin 1) : Read.idx_main_v66 (Read.idx_main_v67 (ix2 n q)) = ix1 q :=
  funext fun a => Fin.ext (by match a with | ⟨0, _⟩ => exact (Nat.lt_one_iff.mp q.isLt).symm)

/-- Dropping the unit axis: entry n of the result is entry (n, 0) of the column. -/
theorem idx75 (n : Fin 100000) : Read.idx_main_v75 (ix1 n) = ix2 n (0 : Fin 1) :=
  funext fun a => Fin.ext (by match a with | ⟨0, _⟩ => exact Nat.div_one _ | ⟨1, _⟩ => rfl)

/-- The first clamp, read at an entry: the maximum with the zero word's value. -/
theorem stage49 (n : Fin 100000) (k : Fin 30) :
    Read.val_main_v49 (F := Ideal) x0 x1 x2 x3 x4 (ix2 n k)
      = max (Read.val_main_v48 (F := Ideal) x0 x1 x2 x3 x4 (ix2 n k)) Spec.floor0 := by
  rw [Read.val_main_v49_apply, Read.val_main_call1_v0_apply, Read.val_main_call1_cst_apply]
  rfl

/-- The first hidden layer: a product with the 30 × 10 weights, the spread bias, the clamp. -/
theorem stage54 (n : Fin 100000) (q : Fin 10) :
    Read.val_main_v54 (F := Ideal) x0 x1 x2 x3 x4 x5 x6 (ix2 n q)
      = Spec.layer (fun n k => Read.val_main_v49 (F := Ideal) x0 x1 x2 x3 x4 (ix2 n k)) (LayerAt.mat x5) (LayerArray.vec x6) n q := by
  rw [Read.val_main_v54_apply, Read.val_main_v53_apply, Read.val_main_v50_apply, Read.val_main_v52_apply,
    Read.val_main_v51_apply, Read.val_main_call2_v0_apply, Read.val_main_call2_cst_apply, bidx52]
  simp only [lidx50, ridx50]
  rfl

/-- The second hidden layer, of the first one's output. -/
theorem stage59 (n : Fin 100000) (q : Fin 10) :
    Read.val_main_v59 (F := Ideal) x0 x1 x2 x3 x4 x5 x6 x7 x8 (ix2 n q)
      = Spec.layer (fun n k => Read.val_main_v54 (F := Ideal) x0 x1 x2 x3 x4 x5 x6 (ix2 n k)) (LayerAt.mat x7) (LayerArray.vec x8) n q := by
  rw [Read.val_main_v59_apply, Read.val_main_v58_apply, Read.val_main_v55_apply, Read.val_main_v57_apply,
    Read.val_main_v56_apply, Read.val_main_call3_v0_apply, Read.val_main_call3_cst_apply, bidx57]
  simp only [lidx55, ridx55]
  rfl

/-- The third hidden layer, of the second one's output. -/
theorem stage64 (n : Fin 100000) (q : Fin 10) :
    Read.val_main_v64 (F := Ideal) x0 x1 x2 x3 x4 x5 x6 x7 x8 x9 x10 (ix2 n q)
      = Spec.layer (fun n k => Read.val_main_v59 (F := Ideal) x0 x1 x2 x3 x4 x5 x6 x7 x8 (ix2 n k)) (LayerAt.mat x9) (LayerArray.vec x10) n q := by
  rw [Read.val_main_v64_apply, Read.val_main_v63_apply, Read.val_main_v60_apply, Read.val_main_v62_apply,
    Read.val_main_v61_apply, Read.val_main_call4_v0_apply, Read.val_main_call4_cst_apply, bidx62]
  simp only [lidx60, ridx60]
  rfl

/-- The last layer, unclamped, with one output feature. -/
theorem stage68 (n : Fin 100000) (q : Fin 1) :
    Read.val_main_v68 (F := Ideal) x0 x1 x2 x3 x4 x5 x6 x7 x8 x9 x10 x11 x12 (ix2 n q)
      = Spec.head (fun n k => Read.val_main_v64 (F := Ideal) x0 x1 x2 x3 x4 x5 x6 x7 x8 x9 x10 (ix2 n k)) (LayerAt.mat x11) (LayerArray.vec x12) n q := by
  rw [Read.val_main_v68_apply, Read.val_main_v65_apply, Read.val_main_v67_apply, Read.val_main_v66_apply, bidx67]
  simp only [lidx65, ridx65]
  rfl

/-- One over one plus the exponential of the negation, with both ones the word 0x3F800000, is the logistic. -/
theorem logistic_spelt (y : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) y)))
      = Ideal.logistic y := by
  show Ideal.div (Ideal.ofBits .f32 0x3F800000#32) (Ideal.ofBits .f32 0x3F800000#32 + Ideal.exp (-y)) = _
  rw [Ideal.ofBits_one_f32]
  rfl

/-- The result at node n: the logistic of the last layer's entry (n, 0). -/
theorem stage75 (n : Fin 100000) :
    Read.val_main_v75 (F := Ideal) x0 x1 x2 x3 x4 x5 x6 x7 x8 x9 x10 x11 x12 (ix1 n)
      = Ideal.logistic (Read.val_main_v68 (F := Ideal) x0 x1 x2 x3 x4 x5 x6 x7 x8 x9 x10 x11 x12 (ix2 n (0 : Fin 1))) := by
  rw [Read.val_main_v75_apply, idx75, Read.val_main_v74_apply, Read.val_main_v73_apply, Read.val_main_cst_10_apply,
    Read.val_main_v72_apply, Read.val_main_v71_apply, Read.val_main_cst_9_apply, Read.val_main_v70_apply,
    Read.val_main_v69_apply]
  exact logistic_spelt _

end Stages

/-- Node n's result from the convolution array (the array written before the first clamp). -/
theorem tail_apply (x0 : (⟨S100000x30, .f32⟩ : BufTy).Contents (Elt Ideal)) (x1 : (⟨S2x3200000, .i32⟩ : BufTy).Contents (Elt Ideal)) (x2 : (⟨S3200000, .f32⟩ : BufTy).Contents (Elt Ideal)) (x3 : (⟨S30x30, .f32⟩ : BufTy).Contents (Elt Ideal)) (x4 : (⟨S30, .f32⟩ : BufTy).Contents (Elt Ideal)) (x5 : (⟨S30x10, .f32⟩ : BufTy).Contents (Elt Ideal)) (x6 : (⟨S10, .f32⟩ : BufTy).Contents (Elt Ideal)) (x7 : (⟨S10x10, .f32⟩ : BufTy).Contents (Elt Ideal)) (x8 : (⟨S10, .f32⟩ : BufTy).Contents (Elt Ideal)) (x9 : (⟨S10x10, .f32⟩ : BufTy).Contents (Elt Ideal)) (x10 : (⟨S10, .f32⟩ : BufTy).Contents (Elt Ideal)) (x11 : (⟨S10x1, .f32⟩ : BufTy).Contents (Elt Ideal)) (x12 : (⟨S1, .f32⟩ : BufTy).Contents (Elt Ideal)) (n : Fin 100000) :
    Read.val_main_v75 (F := Ideal) x0 x1 x2 x3 x4 x5 x6 x7 x8 x9 x10 x11 x12 (ix1 n)
      = Gcn.outOf (fun n q => max (Read.val_main_v48 (F := Ideal) x0 x1 x2 x3 x4 (ix2 n q)) Spec.floor0)
          x5 x6 x7 x8 x9 x10 x11 x12 (ix1 n) := by
  -- each stage, as a matrix, is the specification's layer of the one before
  have h49 : (fun n k => Read.val_main_v49 (F := Ideal) x0 x1 x2 x3 x4 (ix2 n k))
      = fun n q => max (Read.val_main_v48 (F := Ideal) x0 x1 x2 x3 x4 (ix2 n q)) Spec.floor0 :=
    funext fun n => funext fun k => stage49 x0 x1 x2 x3 x4 n k
  have h54 : (fun n k => Read.val_main_v54 (F := Ideal) x0 x1 x2 x3 x4 x5 x6 (ix2 n k))
      = Spec.layer (fun n q => max (Read.val_main_v48 (F := Ideal) x0 x1 x2 x3 x4 (ix2 n q)) Spec.floor0)
          (LayerAt.mat x5) (LayerArray.vec x6) :=
    funext fun n => funext fun k => (stage54 x0 x1 x2 x3 x4 x5 x6 n k).trans (by rw [h49])
  have h59 : (fun n k => Read.val_main_v59 (F := Ideal) x0 x1 x2 x3 x4 x5 x6 x7 x8 (ix2 n k))
      = Spec.layer (Spec.layer (fun n q => max (Read.val_main_v48 (F := Ideal) x0 x1 x2 x3 x4 (ix2 n q)) Spec.floor0)
          (LayerAt.mat x5) (LayerArray.vec x6)) (LayerAt.mat x7) (LayerArray.vec x8) :=
    funext fun n => funext fun k => (stage59 x0 x1 x2 x3 x4 x5 x6 x7 x8 n k).trans (by rw [h54])
  have h64 : (fun n k => Read.val_main_v64 (F := Ideal) x0 x1 x2 x3 x4 x5 x6 x7 x8 x9 x10 (ix2 n k))
      = Spec.layer (Spec.layer (Spec.layer (fun n q => max (Read.val_main_v48 (F := Ideal) x0 x1 x2 x3 x4 (ix2 n q)) Spec.floor0)
          (LayerAt.mat x5) (LayerArray.vec x6)) (LayerAt.mat x7) (LayerArray.vec x8)) (LayerAt.mat x9) (LayerArray.vec x10) :=
    funext fun n => funext fun k => (stage64 x0 x1 x2 x3 x4 x5 x6 x7 x8 x9 x10 n k).trans (by rw [h59])
  rw [stage75, stage68, h64]
  rfl

end Cert.ReferenceIdeal.RefTail

end
-- ==== Proof.Finite.lean ====
/-
  Finiteness of the inputs the algebra needs. The precondition says of every float input that each entry's absolute
  value is below +infinity; for the node features, the edge weights and the convolution weights this is read back as:
  every entry is a real number.
-/
import proofs.«101079_j62629213110804_2_alg».proof.Proof.Gen.KernelIdeal
import proofs.«101079_j62629213110804_2_alg».proof.Proof.Gen.Pre_finite_inputs
import proofs.«101079_j62629213110804_2_alg».proof.Defs
import Idealize.ShloMosaic.Lib.ReduceAll
import Idealize.ShloMosaic.Lib.ValueIdx

noncomputable section

open scoped BigOperators

namespace Cert.KernelIdeal.Finite

open Idealize.ShloMosaic Idealize.ShloMosaic.TcCoe Idealize.SL.Sem Idealize.ShloMosaic.ValueIdx Cert.KernelIdeal

/-- The scalar shape has one index. -/
instance : Subsingleton Cert.Pre_finite_inputs.S_.Idx := ⟨fun a b => funext fun d => d.elim0⟩

/-- An extended real whose absolute value compares below the pattern of +∞ is a real number:
    |⊥| = |⊤| = ⊤, which is not below ⊤. -/
theorem real_of_abs_lt (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have e : Ideal.ofBits .f32 0x7F800000#32 = ⊤ := by simp [Ideal.ofBits, Ideal.ieee]
  change BitVec.ofBool (decide (max x (-x) < Ideal.ofBits .f32 0x7F800000#32)) = 1#1 at h
  rw [e] at h
  induction x using EReal.rec with
  | bot => simp at h
  | coe r => exact ⟨r, rfl⟩
  | top => simp at h

/-- An array whose `all(|x| < +∞)` word is one is real-valued. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = (r : EReal) :=
  real_of_abs_lt (x i) (Host.reduce_andi_all _ _ hr hu ix0 h i)

/-- Both operands of a conjunction of scalar truth words that is one are one. -/
theorem andi_left {a b : IVec Cert.Pre_finite_inputs.S_ 1} (h : andi a b ix0 = 1#1) : a ix0 = 1#1 :=
  (IntOp.andi_eq_one.1 h).1

theorem andi_right {a b : IVec Cert.Pre_finite_inputs.S_ 1} (h : andi a b ix0 = 1#1) : b ix0 = 1#1 :=
  (IntOp.andi_eq_one.1 h).2

/-- Under the precondition the node features, the edge weights and the convolution weights are real-valued. -/
theorem real_of_pre (m : (ℓ : Loc nD τ sig) → Buf (Elt Ideal) ℓ) (hpre : Cert.Pre_KernelIdeal m) (c : Dev nD) :
    (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal)) := by
  -- the precondition's word at the scalar shape's one index, as the printed conjunction of twelve reductions
  have e := congrFun (hpre c) ix0
  dsimp only [Cert.Pre_finite_inputs.fn, Cert.Pre_finite_inputs.fn_part1, Cert.Pre_finite_inputs.fn_part2,
    Cert.Pre_finite_inputs.fn_part3] at e
  -- the conjunction associates to the left: drop the nine later conjuncts, keep the first three
  have e3 := andi_left (andi_left (andi_left (andi_left (andi_left (andi_left (andi_left (andi_left (andi_left e))))))))
  have h3 := andi_right e3
  have h2 := andi_right (andi_left e3)
  have h0 := andi_left (andi_left e3)
  exact ⟨real_of_all _ _ _ _ h0, real_of_all _ _ _ _ h2, real_of_all _ _ _ _ h3⟩

end Cert.KernelIdeal.Finite

end
-- ==== Proof.lean ====
/-
  The certificate of a graph convolution followed by four dense layers and a logistic, computed two ways.

  The kernel program aggregates the UNPROJECTED node features over the real edges on the host (degrees with the
  self-loop's weight added as a constant one, symmetric coefficients, a scatter-add, plus each node's own row scaled by
  the squared reciprocal root of its degree) and then runs one fused region over blocks of 5000 nodes: the projection
  by the convolution weights, the bias and clamp, three more clamped dense layers, a last dense layer and the logistic.
  The reference projects first, extends the edge list by one self-loop per node, aggregates, and runs the same layers
  as whole-array products.  On the extended reals the layers after the convolution are the same function of the
  convolution's rows (GcnSpec.lean's tail), and the two convolutions agree for finite inputs (GcnAlgebra.lean).

  The three frames are the generated ones (the reference's from its generated run); the idealization rewrote nothing,
  so its conjunct is trivial; the value conjunct joins the kernel program's run read as a value (KRun.lean, over
  KPayload.lean and KAgg.lean) with the reference's generated run read at a node (RefTail.lean, RefConv.lean).
-/
import proofs.«101079_j62629213110804_2_alg».proof.Defs
import proofs.«101079_j62629213110804_2_alg».proof.Proof.Gen.Kernel
import proofs.«101079_j62629213110804_2_alg».proof.Proof.Gen.Kernel.Frame
import proofs.«101079_j62629213110804_2_alg».proof.Proof.Gen.KernelIdeal
import proofs.«101079_j62629213110804_2_alg».proof.Proof.Gen.KernelIdeal.Frame
import proofs.«101079_j62629213110804_2_alg».proof.Proof.Gen.ReferenceIdeal
import proofs.«101079_j62629213110804_2_alg».proof.Proof.Gen.Pre_finite_inputs
import proofs.«101079_j62629213110804_2_alg».proof.Proof.Gen.ReferenceIdeal.Run
import proofs.«101079_j62629213110804_2_alg».proof.Proof.Gen.ReferenceIdeal.Read
import proofs.«101079_j62629213110804_2_alg».proof.Proof.GcnSpec
import proofs.«101079_j62629213110804_2_alg».proof.Proof.GcnAlgebra
import proofs.«101079_j62629213110804_2_alg».proof.Proof.KRun
import proofs.«101079_j62629213110804_2_alg».proof.Proof.KAgg
import proofs.«101079_j62629213110804_2_alg».proof.Proof.RefConv
import proofs.«101079_j62629213110804_2_alg».proof.Proof.RefTail
import proofs.«101079_j62629213110804_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Bridge

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The convolution layer's output on the kernel side is the clamped reference convolution: entry by entry the
    aggregated features are the specification's, and the two arrangements agree for finite inputs. -/
theorem conv_layer_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (fun n q => max (Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (ix2 n q)) Spec.floor0)
      = Spec.layer (LayerAt.mat (Cert.KernelIdeal.Gen.V m c Cert.KernelIdeal.main_v46)) (LayerAt.mat (m ((c.tc : Thread Cert.KernelIdeal.nD Cert.KernelIdeal.τ).loc Cert.KernelIdeal.main_arg3))) (LayerArray.vec (m ((c.tc : Thread Cert.KernelIdeal.nD Cert.KernelIdeal.τ).loc Cert.KernelIdeal.main_arg4))) := by
  obtain ⟨hh, hew, hW⟩ := Cert.KernelIdeal.Finite.real_of_pre m hpre c
  funext n q
  rw [Cert.ReferenceIdeal.RefConv.conv_apply]
  have hagg : LayerAt.mat (Cert.KernelIdeal.Gen.V m c Cert.KernelIdeal.main_v46)
      = Gcn.aggK (LayerAt.mat (m ((c.tc : Thread Cert.KernelIdeal.nD Cert.KernelIdeal.τ).loc Cert.KernelIdeal.main_arg0))) (LayerArray.vec (m ((c.tc : Thread Cert.KernelIdeal.nD Cert.KernelIdeal.τ).loc Cert.KernelIdeal.main_arg2))) (Gcn.erow (m ((c.tc : Thread Cert.KernelIdeal.nD Cert.KernelIdeal.τ).loc Cert.KernelIdeal.main_arg1))) (Gcn.ecol (m ((c.tc : Thread Cert.KernelIdeal.nD Cert.KernelIdeal.τ).loc Cert.KernelIdeal.main_arg1))) :=
    funext fun a => funext fun k => Cert.KernelIdeal.KAgg.agg_apply m c a k
  rw [hagg]
  show max _ _ = max _ _
  rw [Gcn.head_aggK_eq_convR _ _ _ _ _ _ (fun a k => hh (ix2 a k)) (fun e => hew (ix1 e)) (fun k q => hW (ix2 k q))]

theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  funext i
  obtain ⟨n, rfl⟩ : ∃ n : Fin 100000, i = ix1 n := ⟨i 0, eq_ix1 i⟩
  rw [Cert.ReferenceIdeal.RefTail.tail_apply, conv_layer_eq m hpre c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
